-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x64 : Shape := ⟨2, ![128, 64]⟩
abbrev S64x32 : Shape := ⟨2, ![64, 32]⟩
abbrev S32x16 : Shape := ⟨2, ![32, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : IVec S100000 32) (main_arg4 : FVec F S128x64 .f32) (main_arg5 : FVec F S64x32 .f32) (main_arg6 : FVec F S32x16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg4
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64x32 .f32 := Host.absf main_arg5
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32x16 .f32 := Host.absf main_arg6
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S100000 : Shape := ⟨1, ![100000]⟩
abbrev S128x64 : Shape := ⟨2, ![128, 64]⟩
abbrev S64x32 : Shape := ⟨2, ![64, 32]⟩
abbrev S32x16 : Shape := ⟨2, ![32, 16]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S10000x128 : Shape := ⟨2, ![10000, 128]⟩
abbrev S10000x1 : Shape := ⟨2, ![10000, 1]⟩
abbrev S10000x64 : Shape := ⟨2, ![10000, 64]⟩
abbrev S1600000x64 : Shape := ⟨2, ![1600000, 64]⟩
abbrev S100000x32 : Shape := ⟨2, ![100000, 32]⟩
abbrev S10000x32 : Shape := ⟨2, ![10000, 32]⟩
abbrev S1600000x32 : Shape := ⟨2, ![1600000, 32]⟩
abbrev S64 : Shape := ⟨1, ![64]⟩
abbrev S64x1 : Shape := ⟨2, ![64, 1]⟩
abbrev S64x16 : Shape := ⟨2, ![64, 16]⟩

abbrev nBuf : Space → Nat
  | .hbm => 75
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x64, .f32⟩
  | .hbm, ⟨5, _⟩ => ⟨S64x32, .f32⟩
  | .hbm, ⟨6, _⟩ => ⟨S32x16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S100000x64, .f32⟩
  | .hbm, ⟨44, _⟩ => ⟨S100000x32, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x32, .f32⟩
  | .hbm, ⟨54, _⟩ => ⟨S_, .f32⟩
  | .hbm, ⟨55, _⟩ => ⟨S100000x32, .f32⟩
  | .hbm, ⟨56, _⟩ => ⟨S1600000x1, .i32⟩
  | .hbm, ⟨57, _⟩ => ⟨S100000x32, .f32⟩
  | .hbm, ⟨58, _⟩ => ⟨S100000x32, .f32⟩
  | .hbm, ⟨59, _⟩ => ⟨S_, .f32⟩
  | .hbm, ⟨60, _⟩ => ⟨S64x32, .f32⟩
  | .hbm, ⟨61, _⟩ => ⟨S100000x1, .i32⟩
  | .hbm, ⟨62, _⟩ => ⟨S64x32, .f32⟩
  | .hbm, ⟨63, _⟩ => ⟨S_, .f32⟩
  | .hbm, ⟨64, _⟩ => ⟨S100000, .f32⟩
  | .hbm, ⟨65, _⟩ => ⟨S_, .f32⟩
  | .hbm, ⟨66, _⟩ => ⟨S64, .f32⟩
  | .hbm, ⟨67, _⟩ => ⟨S100000x1, .i32⟩
  | .hbm, ⟨68, _⟩ => ⟨S64, .f32⟩
  | .hbm, ⟨69, _⟩ => ⟨S_, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S64x1, .f32⟩
  | .hbm, ⟨74, _⟩ => ⟨S64x16, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x1, .f32⟩
  | .local _ .vmem, ⟨16, _⟩ => ⟨S10000x1, .f32⟩
  | .local _ .vmem, ⟨17, _⟩ => ⟨S64x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S10000x1, .f32⟩
  | .local _ .vmem, ⟨23, _⟩ => ⟨S10000x1, .f32⟩
  | .local _ .vmem, ⟨24, _⟩ => ⟨S10000x32, .f32⟩
  | .local _ .vmem, ⟨25, _⟩ => ⟨S10000x32, .f32⟩
  | .local _ .vmem, ⟨26, _⟩ => ⟨S64x32, .f32⟩
  | .local _ .vmem, ⟨27, _⟩ => ⟨S64x1, .f32⟩
  | .local _ .vmem, ⟨28, _⟩ => ⟨S32x16, .f32⟩
  | .local _ .vmem, ⟨29, _⟩ => ⟨S64x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_cst_11 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_12 : Ref sig .tc := ⟨.hbm, 69, rfl⟩
abbrev main_call2_v0 : Ref sig .tc := ⟨.hbm, 70, rfl⟩
abbrev main_call2_v1 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem1_0 : DmaSem sig := 27
abbrev cc4_sem2_0 : DmaSem sig := 28
abbrev cc4_sem3_0 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x32 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S10000x64_S10000x64 : S10000x64.ShapeCasts S10000x64
  broadcasts_S10000x1_S10000x64 : S10000x1.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  shapeCasts_S10000x32_S10000x32 : S10000x32.ShapeCasts S10000x32
  broadcasts_S10000x1_S10000x32 : S10000x1.Broadcasts S10000x32
  bcast_S_S64x32 : S_.BroadcastsInDim S64x32 (![] : Fin 0 → Fin S64x32.rank)
  bcast_S100000_S100000x1_0 : S100000.BroadcastsInDim S100000x1 (![0] : Fin 1 → Fin S100000x1.rank)
  bcast_S_S64 : S_.BroadcastsInDim S64 (![] : Fin 0 → Fin S64.rank)
  shapeCasts_S64_S64x1 : S64.ShapeCasts S64x1
  shapeCasts_S64x32_S64x32 : S64x32.ShapeCasts S64x32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x32 : S64x1.Broadcasts S64x32
  inb_S32x16_S32x16_0_0 : ∀ a, (![0, 0] : Fin 2 → Nat) a + S32x16.size a ≤ S32x16.size a
  h_S32x16 : 0 < S32x16.numel
  inb_S64x16_S64x16_0_0 : ∀ a, (![0, 0] : Fin 2 → Nat) a + S64x16.size a ≤ S64x16.size a
  h_S64x16 : 0 < S64x16.numel
  scatter_S100000_S1600000x1_S1600000_n_0_0_1_wf : ScatterDims.WF S100000 S1600000x1 S1600000 [] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x16_S64x16_1_0_0_1_n_n_wf : DotDims.WF S64x32 S32x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S100000x32.size a
  hwx2_3 : ∀ i : grid2.Coords, EltTy.bits .f32 = 32 ∨ (Rect.block (s := S100000x32) S10000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x32.size a ≤ S64x32.size a
  hwx4_0 : ∀ i : grid4.Coords, EltTy.bits .f32 = 32 ∨ (Rect.block (s := S64x32) S64x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x16.size a ≤ S32x16.size a
  hwx4_2 : ∀ i : grid4.Coords, EltTy.bits .f32 = 32 ∨ (Rect.block (s := S32x16) S32x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x16.size a ≤ S64x16.size a
  hwx4_3 : ∀ i : grid4.Coords, EltTy.bits .f32 = 32 ∨ (Rect.block (s := S64x16) S64x16.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v24) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S10000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v39) S64x32.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v45) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S32x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v46) S64x16.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x64 : Shape := ⟨2, ![128, 64]⟩
abbrev S64x32 : Shape := ⟨2, ![64, 32]⟩
abbrev S32x16 : Shape := ⟨2, ![32, 16]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S100000x32 : Shape := ⟨2, ![100000, 32]⟩
abbrev S1600000x32 : Shape := ⟨2, ![1600000, 32]⟩
abbrev S64 : Shape := ⟨1, ![64]⟩
abbrev S64x1 : Shape := ⟨2, ![64, 1]⟩
abbrev S64x16 : Shape := ⟨2, ![64, 16]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x64, .f32⟩
  | .hbm, ⟨5, _⟩ => ⟨S64x32, .f32⟩
  | .hbm, ⟨6, _⟩ => ⟨S32x16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x128, .f32⟩
  | .hbm, ⟨28, _⟩ => ⟨S100000x128, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S100000, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S_, .f32⟩
  | .hbm, ⟨49, _⟩ => ⟨S100000x64, .f32⟩
  | .hbm, ⟨50, _⟩ => ⟨S100000x64, .i1⟩
  | .hbm, ⟨51, _⟩ => ⟨S_, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S1600000, .f32⟩
  | .hbm, ⟨57, _⟩ => ⟨S_, .f32⟩
  | .hbm, ⟨58, _⟩ => ⟨S100000, .f32⟩
  | .hbm, ⟨59, _⟩ => ⟨S1600000x1, .i32⟩
  | .hbm, ⟨60, _⟩ => ⟨S100000, .f32⟩
  | .hbm, ⟨61, _⟩ => ⟨S_, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S100000x32, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x32, .f32⟩
  | .hbm, ⟨87, _⟩ => ⟨S_, .f32⟩
  | .hbm, ⟨88, _⟩ => ⟨S100000x32, .f32⟩
  | .hbm, ⟨89, _⟩ => ⟨S1600000x1, .i32⟩
  | .hbm, ⟨90, _⟩ => ⟨S100000x32, .f32⟩
  | .hbm, ⟨91, _⟩ => ⟨S100000, .f32⟩
  | .hbm, ⟨92, _⟩ => ⟨S100000x1, .f32⟩
  | .hbm, ⟨93, _⟩ => ⟨S100000x32, .f32⟩
  | .hbm, ⟨94, _⟩ => ⟨S100000x32, .f32⟩
  | .hbm, ⟨95, _⟩ => ⟨S_, .f32⟩
  | .hbm, ⟨96, _⟩ => ⟨S_, .f32⟩
  | .hbm, ⟨97, _⟩ => ⟨S100000x32, .f32⟩
  | .hbm, ⟨98, _⟩ => ⟨S100000x32, .i1⟩
  | .hbm, ⟨99, _⟩ => ⟨S_, .f32⟩
  | .hbm, ⟨100, _⟩ => ⟨S100000x32, .f32⟩
  | .hbm, ⟨101, _⟩ => ⟨S100000x32, .f32⟩
  | .hbm, ⟨102, _⟩ => ⟨S100000x32, .f32⟩
  | .hbm, ⟨103, _⟩ => ⟨S_, .f32⟩
  | .hbm, ⟨104, _⟩ => ⟨S64x32, .f32⟩
  | .hbm, ⟨105, _⟩ => ⟨S100000x1, .i32⟩
  | .hbm, ⟨106, _⟩ => ⟨S64x32, .f32⟩
  | .hbm, ⟨107, _⟩ => ⟨S_, .f32⟩
  | .hbm, ⟨108, _⟩ => ⟨S100000, .f32⟩
  | .hbm, ⟨109, _⟩ => ⟨S_, .f32⟩
  | .hbm, ⟨110, _⟩ => ⟨S64, .f32⟩
  | .hbm, ⟨111, _⟩ => ⟨S100000x1, .i32⟩
  | .hbm, ⟨112, _⟩ => ⟨S64, .f32⟩
  | .hbm, ⟨113, _⟩ => ⟨S_, .f32⟩
  | .hbm, ⟨114, _⟩ => ⟨S_, .f32⟩
  | .hbm, ⟨115, _⟩ => ⟨S64, .f32⟩
  | .hbm, ⟨116, _⟩ => ⟨S64, .f32⟩
  | .hbm, ⟨117, _⟩ => ⟨S64x1, .f32⟩
  | .hbm, ⟨118, _⟩ => ⟨S64x32, .f32⟩
  | .hbm, ⟨119, _⟩ => ⟨S64x32, .f32⟩
  | .hbm, ⟨120, _⟩ => ⟨S64x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_call2_cst : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v28 : Ref sig .tc := ⟨.hbm, 54, rfl⟩
abbrev main_cst_7 : Ref sig .tc := ⟨.hbm, 55, rfl⟩
abbrev main_v29 : Ref sig .tc := ⟨.hbm, 56, rfl⟩
abbrev main_cst_8 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_9 : Ref sig .tc := ⟨.hbm, 61, rfl⟩
abbrev main_call3_v0 : Ref sig .tc := ⟨.hbm, 62, rfl⟩
abbrev main_call3_v1 : Ref sig .tc := ⟨.hbm, 63, rfl⟩
abbrev main_v33 : Ref sig .tc := ⟨.hbm, 64, rfl⟩
abbrev main_cst_10 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_11 : Ref sig .tc := ⟨.hbm, 69, rfl⟩
abbrev main_call4_v0 : Ref sig .tc := ⟨.hbm, 70, rfl⟩
abbrev main_call4_v1 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c_12 : Ref sig .tc := ⟨.hbm, 78, rfl⟩
abbrev main_v43 : Ref sig .tc := ⟨.hbm, 79, rfl⟩
abbrev main_v44 : Ref sig .tc := ⟨.hbm, 80, rfl⟩
abbrev main_c_13 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_14 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_15 : Ref sig .tc := ⟨.hbm, 95, rfl⟩
abbrev main_call5_cst : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_v57 : Ref sig .tc := ⟨.hbm, 102, rfl⟩
abbrev main_cst_16 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_cst_17 : Ref sig .tc := ⟨.hbm, 107, rfl⟩
abbrev main_v61 : Ref sig .tc := ⟨.hbm, 108, rfl⟩
abbrev main_cst_18 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_19 : Ref sig .tc := ⟨.hbm, 113, rfl⟩
abbrev main_call6_v0 : Ref sig .tc := ⟨.hbm, 114, rfl⟩
abbrev main_call6_v1 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S_S64x32 : S_.BroadcastsInDim S64x32 (![] : Fin 0 → Fin S64x32.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x16_S64x16_1_0_0_1_n_n_wf : DotDims.WF S64x32 S32x16 S64x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf

class Facts : Prop extends Facts₀ where

variable [Facts]
-- ==== Proof.KRun.lean ====
/-
  The idealized kernel program's run with the RESULT in the post. The program is five kernel regions among stretches of
  host operations; its execution is followed segment by segment, each segment leaving every unscoped buffer at a named
  contents, and the last of those contents (after the fifth region's write-backs) is what the final memory holds at
  every buffer. Read at the result buffer this gives the result's value; read at an argument buffer it walks back to
  the launch contents, since no host operation and no region writes an argument.
-/
import proofs.«108006_j68547678044330_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents the
    last segment leaves there, and the seven argument arrays end as launched. -/
theorem run_value : θ_run defs (onTc (τ := τ) (main (F := F))) ⟨m, fun _ => 0, ρ⟩ (fun r => ∀ c : Dev nD,
      r.2.mem ((c.tc : Thread nD τ).loc main_v46) = W15 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v46 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c)⟩)

end Cert.KernelIdeal.ValueRun

end
-- ==== Proof.KHost.lean ====
/-
  The idealized kernel program's buffers, read at the entry of each kernel region. Between the regions the program runs
  stretches of host operations; a buffer that a stretch does not write keeps its contents, a region changes only the
  arrays its output windows write back, and an array a region only reads through an input window is left as it was.
  So the seven argument arrays are, at every region's entry, what they were at launch; the two columns of inverse square
  roots of the clipped degrees, computed once before the first region, are still there when later regions read them;
  and what the host computes from a region's result (the gather along the edge sources and the scatter-add into the edge
  destinations; the pooled sums and the clipped node counts) is the corresponding function of that result.
-/
import proofs.«108006_j68547678044330_1_alg».proof.Proof.Gen.KernelIdeal.Frame
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-! ## The host's functions between the regions -/

/-- The clipped degree: at each node the larger of 1 and the number of edges whose endpoint (as listed in `idx`) it is. -/
def degreeK (idx : IVec S1600000 32) : FVec F S100000 .f32 :=
  maximumf (broadcastInDim S100000 ![] bcast_S_S100000 (id (constant (F := F) S_ .f32 0x3F800000#32)))
    (Host.scatterAdd scatter_S100000_S1600000x1_S1600000_n_0_0_1
      (broadcastInDim S100000 ![] bcast_S_S100000 (constant (F := F) S_ .f32 0x00000000#32))
      (broadcastInDim S1600000x1 ![0] bcast_S1600000_S1600000x1_0 idx)
      (broadcastInDim S1600000 ![] bcast_S_S1600000 (constant (F := F) S_ .f32 0x3F800000#32)))

/-- A per-node value as a one-column array. -/
def colK (f : FVec F S100000 .f32) : FVec F S100000x1 .f32 := fun i => shapeCast S100000x1 f shapeCasts_S100000_S100000x1 i

/-- The edge sources as a column of row numbers, a negative one counted from the end. -/
def wrapColK (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- Neighbour aggregation at 64 columns: row src(e) of `h` added into row dst(e), over all edges e. -/
def aggK64 (h : FVec F S100000x64 .f32) (src dst : IVec S1600000 32) : FVec F S100000x64 .f32 :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0 dst)
    (Host.gather gather_S100000x64_S1600000x1_S1600000x64_1_0_n_n_0_1_164 h (wrapColK src))

/-- The same at 32 columns. -/
def aggK32 (h : FVec F S100000x32 .f32) (src dst : IVec S1600000 32) : FVec F S100000x32 .f32 :=
  Host.scatterAdd scatter_S100000x32_S1600000x1_S1600000x32_1_0_0_1
    (broadcastInDim S100000x32 ![] bcast_S_S100000x32 (constant (F := F) S_ .f32 0x00000000#32))
    (broadcastInDim S1600000x1 ![0] bcast_S1600000_S1600000x1_0 dst)
    (Host.gather gather_S100000x32_S1600000x1_S1600000x32_1_0_n_n_0_1_132 h (wrapColK src))

/-- The per-graph sums of the node rows. -/
def sumsK (h : FVec F S100000x32 .f32) (gid : IVec S100000 32) : FVec F S64x32 .f32 :=
  Host.scatterAdd scatter_S64x32_S100000x1_S100000x32_1_0_0_1
    (broadcastInDim S64x32 ![] bcast_S_S64x32 (constant (F := F) S_ .f32 0x00000000#32))
    (broadcastInDim S100000x1 ![0] bcast_S100000_S100000x1_0 gid) h

/-- The clipped per-graph node counts. -/
def countsK (gid : IVec S100000 32) : FVec F S64 .f32 :=
  maximumf (broadcastInDim S64 ![] bcast_S_S64 (id (constant (F := F) S_ .f32 0x3F800000#32)))
    (Host.scatterAdd scatter_S64_S100000x1_S100000_n_0_0_1
      (broadcastInDim S64 ![] bcast_S_S64 (constant (F := F) S_ .f32 0x00000000#32))
      (broadcastInDim S100000x1 ![0] bcast_S100000_S100000x1_0 gid)
      (broadcastInDim S100000 ![] bcast_S_S100000 (constant (F := F) S_ .f32 0x3F800000#32)))

/-- The counts as a one-column array. -/
def colK64 (f : FVec F S64 .f32) : FVec F S64x1 .f32 := fun i => shapeCast S64x1 f shapeCasts_S64_S64x1 i

/-! ## A buffer no operation of a stretch writes keeps its contents -/

/-- Closes `after ops V b = V b` for one of the program's stretches `ops` and a buffer none of its operations writes. -/
macro "host_keep" : tactic => `(tactic|
  (refine StableHlo.after_of_forall_not_mem _ _ (List.forall_iff_forall_mem.mp ?_)
   simp only [hostOps0, hostOps0_1, hostOps0_2, hostOps0_3, hostOps0_4, hostOps1, hostOps3, hostOps4, hostOps4_1, hostOps4_2,
     List.Forall, StableHlo.nullary_writes, StableHlo.unary_writes, StableHlo.binary_writes, StableHlo.ternary_writes,
     StableHlo.reshape_writes, Finset.mem_singleton]
   repeat' apply And.intro
   all_goals exact StableHlo.devRef_ne_of_ne (by decide)))

variable (m : (ℓ : Loc nD τ sig) → Buf (Elt F) ℓ) (ρ : Dev nD → PrngReg) (c : Dev nD)

/-! ## The argument arrays at each boundary are the launch contents -/

theorem arg0_at0 : W0 m ρ c (Proc.devRef .tc main_arg0) = m ((c : Thread nD τ).loc main_arg0) := rfl
theorem arg0_at1 : W1 m ρ c (Proc.devRef .tc main_arg0) = m ((c : Thread nD τ).loc main_arg0) :=
  (show W1 m ρ c (Proc.devRef .tc main_arg0) = W0 m ρ c (Proc.devRef .tc main_arg0) from by host_keep).trans (arg0_at0 m ρ c)
theorem arg0_at2 : W2 m ρ c (Proc.devRef .tc main_arg0) = m ((c : Thread nD τ).loc main_arg0) :=
  (show W2 m ρ c (Proc.devRef .tc main_arg0) = W1 m ρ c (Proc.devRef .tc main_arg0) from by host_keep).trans (arg0_at1 m ρ c)
theorem arg0_at3 : W3 m ρ c (Proc.devRef .tc main_arg0) = m ((c : Thread nD τ).loc main_arg0) :=
  (show W3 m ρ c (Proc.devRef .tc main_arg0) = W2 m ρ c (Proc.devRef .tc main_arg0) from by host_keep).trans (arg0_at2 m ρ c)
theorem arg0_at4 : W4 m ρ c (Proc.devRef .tc main_arg0) = m ((c : Thread nD τ).loc main_arg0) :=
  (show W4 m ρ c (Proc.devRef .tc main_arg0) = W3 m ρ c (Proc.devRef .tc main_arg0) from by host_keep).trans (arg0_at3 m ρ c)
theorem arg0_at5 : W5 m ρ c (Proc.devRef .tc main_arg0) = m ((c : Thread nD τ).loc main_arg0) :=
  (show W5 m ρ c (Proc.devRef .tc main_arg0) = W4 m ρ c (Proc.devRef .tc main_arg0) from by host_keep).trans (arg0_at4 m ρ c)

theorem arg4_at0 : W0 m ρ c (Proc.devRef .tc main_arg4) = m ((c : Thread nD τ).loc main_arg4) := rfl
theorem arg4_at1 : W1 m ρ c (Proc.devRef .tc main_arg4) = m ((c : Thread nD τ).loc main_arg4) :=
  (show W1 m ρ c (Proc.devRef .tc main_arg4) = W0 m ρ c (Proc.devRef .tc main_arg4) from by host_keep).trans (arg4_at0 m ρ c)
theorem arg4_at2 : W2 m ρ c (Proc.devRef .tc main_arg4) = m ((c : Thread nD τ).loc main_arg4) :=
  (show W2 m ρ c (Proc.devRef .tc main_arg4) = W1 m ρ c (Proc.devRef .tc main_arg4) from by host_keep).trans (arg4_at1 m ρ c)
theorem arg4_at3 : W3 m ρ c (Proc.devRef .tc main_arg4) = m ((c : Thread nD τ).loc main_arg4) :=
  (show W3 m ρ c (Proc.devRef .tc main_arg4) = W2 m ρ c (Proc.devRef .tc main_arg4) from by host_keep).trans (arg4_at2 m ρ c)
theorem arg4_at4 : W4 m ρ c (Proc.devRef .tc main_arg4) = m ((c : Thread nD τ).loc main_arg4) :=
  (show W4 m ρ c (Proc.devRef .tc main_arg4) = W3 m ρ c (Proc.devRef .tc main_arg4) from by host_keep).trans (arg4_at3 m ρ c)
theorem arg4_at5 : W5 m ρ c (Proc.devRef .tc main_arg4) = m ((c : Thread nD τ).loc main_arg4) :=
  (show W5 m ρ c (Proc.devRef .tc main_arg4) = W4 m ρ c (Proc.devRef .tc main_arg4) from by host_keep).trans (arg4_at4 m ρ c)

theorem arg1_at0 : W0 m ρ c (Proc.devRef .tc main_arg1) = m ((c : Thread nD τ).loc main_arg1) := rfl
theorem arg1_at1 : W1 m ρ c (Proc.devRef .tc main_arg1) = m ((c : Thread nD τ).loc main_arg1) :=
  (show W1 m ρ c (Proc.devRef .tc main_arg1) = W0 m ρ c (Proc.devRef .tc main_arg1) from by host_keep).trans (arg1_at0 m ρ c)
theorem arg1_at2 : W2 m ρ c (Proc.devRef .tc main_arg1) = m ((c : Thread nD τ).loc main_arg1) :=
  (show W2 m ρ c (Proc.devRef .tc main_arg1) = W1 m ρ c (Proc.devRef .tc main_arg1) from by host_keep).trans (arg1_at1 m ρ c)
theorem arg1_at3 : W3 m ρ c (Proc.devRef .tc main_arg1) = m ((c : Thread nD τ).loc main_arg1) :=
  (show W3 m ρ c (Proc.devRef .tc main_arg1) = W2 m ρ c (Proc.devRef .tc main_arg1) from by host_keep).trans (arg1_at2 m ρ c)
theorem arg1_at4 : W4 m ρ c (Proc.devRef .tc main_arg1) = m ((c : Thread nD τ).loc main_arg1) :=
  (show W4 m ρ c (Proc.devRef .tc main_arg1) = W3 m ρ c (Proc.devRef .tc main_arg1) from by host_keep).trans (arg1_at3 m ρ c)
theorem arg1_at5 : W5 m ρ c (Proc.devRef .tc main_arg1) = m ((c : Thread nD τ).loc main_arg1) :=
  (show W5 m ρ c (Proc.devRef .tc main_arg1) = W4 m ρ c (Proc.devRef .tc main_arg1) from by host_keep).trans (arg1_at4 m ρ c)
theorem arg1_at6 : W6 m ρ c (Proc.devRef .tc main_arg1) = m ((c : Thread nD τ).loc main_arg1) :=
  (W6_of_ne m ρ c main_arg1 (by decide)).trans (arg1_at5 m ρ c)
theorem arg1_at7 : W7 m ρ c (Proc.devRef .tc main_arg1) = m ((c : Thread nD τ).loc main_arg1) :=
  (show W7 m ρ c (Proc.devRef .tc main_arg1) = W6 m ρ c (Proc.devRef .tc main_arg1) from by host_keep).trans (arg1_at6 m ρ c)
theorem arg1_at8 : W8 m ρ c (Proc.devRef .tc main_arg1) = m ((c : Thread nD τ).loc main_arg1) :=
  (W8_of_ne m ρ c main_arg1 (by decide)).trans (arg1_at7 m ρ c)
theorem arg1_at9 : W9 m ρ c (Proc.devRef .tc main_arg1) = m ((c : Thread nD τ).loc main_arg1) :=
  (W9_of_ne m ρ c main_arg1 (by decide)).trans (arg1_at8 m ρ c)

theorem arg2_at0 : W0 m ρ c (Proc.devRef .tc main_arg2) = m ((c : Thread nD τ).loc main_arg2) := rfl
theorem arg2_at1 : W1 m ρ c (Proc.devRef .tc main_arg2) = m ((c : Thread nD τ).loc main_arg2) :=
  (show W1 m ρ c (Proc.devRef .tc main_arg2) = W0 m ρ c (Proc.devRef .tc main_arg2) from by host_keep).trans (arg2_at0 m ρ c)
theorem arg2_at2 : W2 m ρ c (Proc.devRef .tc main_arg2) = m ((c : Thread nD τ).loc main_arg2) :=
  (show W2 m ρ c (Proc.devRef .tc main_arg2) = W1 m ρ c (Proc.devRef .tc main_arg2) from by host_keep).trans (arg2_at1 m ρ c)
theorem arg2_at3 : W3 m ρ c (Proc.devRef .tc main_arg2) = m ((c : Thread nD τ).loc main_arg2) :=
  (show W3 m ρ c (Proc.devRef .tc main_arg2) = W2 m ρ c (Proc.devRef .tc main_arg2) from by host_keep).trans (arg2_at2 m ρ c)
theorem arg2_at4 : W4 m ρ c (Proc.devRef .tc main_arg2) = m ((c : Thread nD τ).loc main_arg2) :=
  (show W4 m ρ c (Proc.devRef .tc main_arg2) = W3 m ρ c (Proc.devRef .tc main_arg2) from by host_keep).trans (arg2_at3 m ρ c)
theorem arg2_at5 : W5 m ρ c (Proc.devRef .tc main_arg2) = m ((c : Thread nD τ).loc main_arg2) :=
  (show W5 m ρ c (Proc.devRef .tc main_arg2) = W4 m ρ c (Proc.devRef .tc main_arg2) from by host_keep).trans (arg2_at4 m ρ c)
theorem arg2_at6 : W6 m ρ c (Proc.devRef .tc main_arg2) = m ((c : Thread nD τ).loc main_arg2) :=
  (W6_of_ne m ρ c main_arg2 (by decide)).trans (arg2_at5 m ρ c)
theorem arg2_at7 : W7 m ρ c (Proc.devRef .tc main_arg2) = m ((c : Thread nD τ).loc main_arg2) :=
  (show W7 m ρ c (Proc.devRef .tc main_arg2) = W6 m ρ c (Proc.devRef .tc main_arg2) from by host_keep).trans (arg2_at6 m ρ c)
theorem arg2_at8 : W8 m ρ c (Proc.devRef .tc main_arg2) = m ((c : Thread nD τ).loc main_arg2) :=
  (W8_of_ne m ρ c main_arg2 (by decide)).trans (arg2_at7 m ρ c)
theorem arg2_at9 : W9 m ρ c (Proc.devRef .tc main_arg2) = m ((c : Thread nD τ).loc main_arg2) :=
  (W9_of_ne m ρ c main_arg2 (by decide)).trans (arg2_at8 m ρ c)

theorem arg5_at0 : W0 m ρ c (Proc.devRef .tc main_arg5) = m ((c : Thread nD τ).loc main_arg5) := rfl
theorem arg5_at1 : W1 m ρ c (Proc.devRef .tc main_arg5) = m ((c : Thread nD τ).loc main_arg5) :=
  (show W1 m ρ c (Proc.devRef .tc main_arg5) = W0 m ρ c (Proc.devRef .tc main_arg5) from by host_keep).trans (arg5_at0 m ρ c)
theorem arg5_at2 : W2 m ρ c (Proc.devRef .tc main_arg5) = m ((c : Thread nD τ).loc main_arg5) :=
  (show W2 m ρ c (Proc.devRef .tc main_arg5) = W1 m ρ c (Proc.devRef .tc main_arg5) from by host_keep).trans (arg5_at1 m ρ c)
theorem arg5_at3 : W3 m ρ c (Proc.devRef .tc main_arg5) = m ((c : Thread nD τ).loc main_arg5) :=
  (show W3 m ρ c (Proc.devRef .tc main_arg5) = W2 m ρ c (Proc.devRef .tc main_arg5) from by host_keep).trans (arg5_at2 m ρ c)
theorem arg5_at4 : W4 m ρ c (Proc.devRef .tc main_arg5) = m ((c : Thread nD τ).loc main_arg5) :=
  (show W4 m ρ c (Proc.devRef .tc main_arg5) = W3 m ρ c (Proc.devRef .tc main_arg5) from by host_keep).trans (arg5_at3 m ρ c)
theorem arg5_at5 : W5 m ρ c (Proc.devRef .tc main_arg5) = m ((c : Thread nD τ).loc main_arg5) :=
  (show W5 m ρ c (Proc.devRef .tc main_arg5) = W4 m ρ c (Proc.devRef .tc main_arg5) from by host_keep).trans (arg5_at4 m ρ c)
theorem arg5_at6 : W6 m ρ c (Proc.devRef .tc main_arg5) = m ((c : Thread nD τ).loc main_arg5) :=
  (W6_of_ne m ρ c main_arg5 (by decide)).trans (arg5_at5 m ρ c)
theorem arg5_at7 : W7 m ρ c (Proc.devRef .tc main_arg5) = m ((c : Thread nD τ).loc main_arg5) :=
  (show W7 m ρ c (Proc.devRef .tc main_arg5) = W6 m ρ c (Proc.devRef .tc main_arg5) from by host_keep).trans (arg5_at6 m ρ c)
theorem arg5_at8 : W8 m ρ c (Proc.devRef .tc main_arg5) = m ((c : Thread nD τ).loc main_arg5) :=
  (W8_of_ne m ρ c main_arg5 (by decide)).trans (arg5_at7 m ρ c)

theorem arg3_at0 : W0 m ρ c (Proc.devRef .tc main_arg3) = m ((c : Thread nD τ).loc main_arg3) := rfl
theorem arg3_at1 : W1 m ρ c (Proc.devRef .tc main_arg3) = m ((c : Thread nD τ).loc main_arg3) :=
  (show W1 m ρ c (Proc.devRef .tc main_arg3) = W0 m ρ c (Proc.devRef .tc main_arg3) from by host_keep).trans (arg3_at0 m ρ c)
theorem arg3_at2 : W2 m ρ c (Proc.devRef .tc main_arg3) = m ((c : Thread nD τ).loc main_arg3) :=
  (show W2 m ρ c (Proc.devRef .tc main_arg3) = W1 m ρ c (Proc.devRef .tc main_arg3) from by host_keep).trans (arg3_at1 m ρ c)
theorem arg3_at3 : W3 m ρ c (Proc.devRef .tc main_arg3) = m ((c : Thread nD τ).loc main_arg3) :=
  (show W3 m ρ c (Proc.devRef .tc main_arg3) = W2 m ρ c (Proc.devRef .tc main_arg3) from by host_keep).trans (arg3_at2 m ρ c)
theorem arg3_at4 : W4 m ρ c (Proc.devRef .tc main_arg3) = m ((c : Thread nD τ).loc main_arg3) :=
  (show W4 m ρ c (Proc.devRef .tc main_arg3) = W3 m ρ c (Proc.devRef .tc main_arg3) from by host_keep).trans (arg3_at3 m ρ c)
theorem arg3_at5 : W5 m ρ c (Proc.devRef .tc main_arg3) = m ((c : Thread nD τ).loc main_arg3) :=
  (show W5 m ρ c (Proc.devRef .tc main_arg3) = W4 m ρ c (Proc.devRef .tc main_arg3) from by host_keep).trans (arg3_at4 m ρ c)
theorem arg3_at6 : W6 m ρ c (Proc.devRef .tc main_arg3) = m ((c : Thread nD τ).loc main_arg3) :=
  (W6_of_ne m ρ c main_arg3 (by decide)).trans (arg3_at5 m ρ c)
theorem arg3_at7 : W7 m ρ c (Proc.devRef .tc main_arg3) = m ((c : Thread nD τ).loc main_arg3) :=
  (show W7 m ρ c (Proc.devRef .tc main_arg3) = W6 m ρ c (Proc.devRef .tc main_arg3) from by host_keep).trans (arg3_at6 m ρ c)
theorem arg3_at8 : W8 m ρ c (Proc.devRef .tc main_arg3) = m ((c : Thread nD τ).loc main_arg3) :=
  (W8_of_ne m ρ c main_arg3 (by decide)).trans (arg3_at7 m ρ c)
theorem arg3_at9 : W9 m ρ c (Proc.devRef .tc main_arg3) = m ((c : Thread nD τ).loc main_arg3) :=
  (W9_of_ne m ρ c main_arg3 (by decide)).trans (arg3_at8 m ρ c)
theorem arg3_at10 : W10 m ρ c (Proc.devRef .tc main_arg3) = m ((c : Thread nD τ).loc main_arg3) :=
  (show W10 m ρ c (Proc.devRef .tc main_arg3) = W9 m ρ c (Proc.devRef .tc main_arg3) from by host_keep).trans (arg3_at9 m ρ c)
theorem arg3_at11 : W11 m ρ c (Proc.devRef .tc main_arg3) = m ((c : Thread nD τ).loc main_arg3) :=
  (W11_of_ne m ρ c main_arg3 (by decide)).trans (arg3_at10 m ρ c)

theorem arg6_at0 : W0 m ρ c (Proc.devRef .tc main_arg6) = m ((c : Thread nD τ).loc main_arg6) := rfl
theorem arg6_at1 : W1 m ρ c (Proc.devRef .tc main_arg6) = m ((c : Thread nD τ).loc main_arg6) :=
  (show W1 m ρ c (Proc.devRef .tc main_arg6) = W0 m ρ c (Proc.devRef .tc main_arg6) from by host_keep).trans (arg6_at0 m ρ c)
theorem arg6_at2 : W2 m ρ c (Proc.devRef .tc main_arg6) = m ((c : Thread nD τ).loc main_arg6) :=
  (show W2 m ρ c (Proc.devRef .tc main_arg6) = W1 m ρ c (Proc.devRef .tc main_arg6) from by host_keep).trans (arg6_at1 m ρ c)
theorem arg6_at3 : W3 m ρ c (Proc.devRef .tc main_arg6) = m ((c : Thread nD τ).loc main_arg6) :=
  (show W3 m ρ c (Proc.devRef .tc main_arg6) = W2 m ρ c (Proc.devRef .tc main_arg6) from by host_keep).trans (arg6_at2 m ρ c)
theorem arg6_at4 : W4 m ρ c (Proc.devRef .tc main_arg6) = m ((c : Thread nD τ).loc main_arg6) :=
  (show W4 m ρ c (Proc.devRef .tc main_arg6) = W3 m ρ c (Proc.devRef .tc main_arg6) from by host_keep).trans (arg6_at3 m ρ c)
theorem arg6_at5 : W5 m ρ c (Proc.devRef .tc main_arg6) = m ((c : Thread nD τ).loc main_arg6) :=
  (show W5 m ρ c (Proc.devRef .tc main_arg6) = W4 m ρ c (Proc.devRef .tc main_arg6) from by host_keep).trans (arg6_at4 m ρ c)
theorem arg6_at6 : W6 m ρ c (Proc.devRef .tc main_arg6) = m ((c : Thread nD τ).loc main_arg6) :=
  (W6_of_ne m ρ c main_arg6 (by decide)).trans (arg6_at5 m ρ c)
theorem arg6_at7 : W7 m ρ c (Proc.devRef .tc main_arg6) = m ((c : Thread nD τ).loc main_arg6) :=
  (show W7 m ρ c (Proc.devRef .tc main_arg6) = W6 m ρ c (Proc.devRef .tc main_arg6) from by host_keep).trans (arg6_at6 m ρ c)
theorem arg6_at8 : W8 m ρ c (Proc.devRef .tc main_arg6) = m ((c : Thread nD τ).loc main_arg6) :=
  (W8_of_ne m ρ c main_arg6 (by decide)).trans (arg6_at7 m ρ c)
theorem arg6_at9 : W9 m ρ c (Proc.devRef .tc main_arg6) = m ((c : Thread nD τ).loc main_arg6) :=
  (W9_of_ne m ρ c main_arg6 (by decide)).trans (arg6_at8 m ρ c)
theorem arg6_at10 : W10 m ρ c (Proc.devRef .tc main_arg6) = m ((c : Thread nD τ).loc main_arg6) :=
  (show W10 m ρ c (Proc.devRef .tc main_arg6) = W9 m ρ c (Proc.devRef .tc main_arg6) from by host_keep).trans (arg6_at9 m ρ c)
theorem arg6_at11 : W11 m ρ c (Proc.devRef .tc main_arg6) = m ((c : Thread nD τ).loc main_arg6) :=
  (W11_of_ne m ρ c main_arg6 (by decide)).trans (arg6_at10 m ρ c)
theorem arg6_at12 : W12 m ρ c (Proc.devRef .tc main_arg6) = m ((c : Thread nD τ).loc main_arg6) :=
  (show W12 m ρ c (Proc.devRef .tc main_arg6) = W11 m ρ c (Proc.devRef .tc main_arg6) from by host_keep).trans (arg6_at11 m ρ c)
theorem arg6_at13 : W13 m ρ c (Proc.devRef .tc main_arg6) = m ((c : Thread nD τ).loc main_arg6) :=
  (show W13 m ρ c (Proc.devRef .tc main_arg6) = W12 m ρ c (Proc.devRef .tc main_arg6) from by host_keep).trans (arg6_at12 m ρ c)
theorem arg6_at14 : W14 m ρ c (Proc.devRef .tc main_arg6) = m ((c : Thread nD τ).loc main_arg6) :=
  (show W14 m ρ c (Proc.devRef .tc main_arg6) = W13 m ρ c (Proc.devRef .tc main_arg6) from by host_keep).trans (arg6_at13 m ρ c)

/-! ## The two factor columns, computed before the first region, at the later boundaries -/

theorem v10_at6 : W6 m ρ c (Proc.devRef .tc main_v10) = W5 m ρ c (Proc.devRef .tc main_v10) :=
  ((W6_arr m ρ c 1).trans (((dat0 (V5 m ρ) c).arrAt_in 1 rfl _).trans (A_eq0 (V5 m ρ) c 1)))
theorem v10_at7 : W7 m ρ c (Proc.devRef .tc main_v10) = W5 m ρ c (Proc.devRef .tc main_v10) :=
  (show W7 m ρ c (Proc.devRef .tc main_v10) = W6 m ρ c (Proc.devRef .tc main_v10) from by host_keep).trans (v10_at6 m ρ c)
theorem v10_at8 : W8 m ρ c (Proc.devRef .tc main_v10) = W5 m ρ c (Proc.devRef .tc main_v10) :=
  (W8_of_ne m ρ c main_v10 (by decide)).trans (v10_at7 m ρ c)
theorem v12_at6 : W6 m ρ c (Proc.devRef .tc main_v12) = W5 m ρ c (Proc.devRef .tc main_v12) :=
  (W6_of_ne m ρ c main_v12 (by decide))
theorem v12_at7 : W7 m ρ c (Proc.devRef .tc main_v12) = W5 m ρ c (Proc.devRef .tc main_v12) :=
  (show W7 m ρ c (Proc.devRef .tc main_v12) = W6 m ρ c (Proc.devRef .tc main_v12) from by host_keep).trans (v12_at6 m ρ c)
theorem v12_at8 : W8 m ρ c (Proc.devRef .tc main_v12) = W5 m ρ c (Proc.devRef .tc main_v12) :=
  ((W8_arr m ρ c 1).trans (((dat1 (V7 m ρ) c).arrAt_in 1 rfl _).trans (A_eq1 (V7 m ρ) c 1))).trans (v12_at7 m ρ c)
theorem v12_at9 : W9 m ρ c (Proc.devRef .tc main_v12) = W5 m ρ c (Proc.devRef .tc main_v12) :=
  (W9_of_ne m ρ c main_v12 (by decide)).trans (v12_at8 m ρ c)
theorem v12_at10 : W10 m ρ c (Proc.devRef .tc main_v12) = W5 m ρ c (Proc.devRef .tc main_v12) :=
  (show W10 m ρ c (Proc.devRef .tc main_v12) = W9 m ρ c (Proc.devRef .tc main_v12) from by host_keep).trans (v12_at9 m ρ c)

/-! ## What the host computes -/

/-- Before the first region: the column of inverse square roots of the clipped out-degrees. -/
theorem v10_at5 : W5 m ρ c (Proc.devRef .tc main_v10)
    = colK (Host.rsqrt (degreeK (m ((c : Thread nD τ).loc main_arg1)))) := by
  show after hostOps0_4 (after hostOps0_3 (after hostOps0_2 (after hostOps0_1 (after hostOps0 (W0 m ρ c))))) (Proc.devRef .tc main_v10)
    = colK (Host.rsqrt (degreeK (W0 m ρ c (Proc.devRef .tc main_arg1))))
  generalize W0 m ρ c = V
  after_results
  rfl

/-- Before the first region: the column of inverse square roots of the clipped in-degrees. -/
theorem v12_at5 : W5 m ρ c (Proc.devRef .tc main_v12)
    = colK (Host.rsqrt (degreeK (m ((c : Thread nD τ).loc main_arg2)))) := by
  show after hostOps0_4 (after hostOps0_3 (after hostOps0_2 (after hostOps0_1 (after hostOps0 (W0 m ρ c))))) (Proc.devRef .tc main_v12)
    = colK (Host.rsqrt (degreeK (W0 m ρ c (Proc.devRef .tc main_arg2))))
  generalize W0 m ρ c = V
  after_results
  rfl

/-- After the first region: the aggregated rows of its result. -/
theorem v23_at7 : W7 m ρ c (Proc.devRef .tc main_v23)
    = aggK64 (W6 m ρ c (Proc.devRef .tc main_v13)) (W6 m ρ c (Proc.devRef .tc main_arg1)) (W6 m ρ c (Proc.devRef .tc main_arg2)) := by
  show after hostOps1 (W6 m ρ c) (Proc.devRef .tc main_v23) = _
  generalize W6 m ρ c = V
  after_results
  rfl

/-- After the third region: the aggregated rows of its result. -/
theorem v35_at10 : W10 m ρ c (Proc.devRef .tc main_v35)
    = aggK32 (W9 m ρ c (Proc.devRef .tc main_v25)) (W9 m ρ c (Proc.devRef .tc main_arg1)) (W9 m ρ c (Proc.devRef .tc main_arg2)) := by
  show after hostOps3 (W9 m ρ c) (Proc.devRef .tc main_v35) = _
  generalize W9 m ρ c = V
  after_results
  rfl

/-- After the fourth region: the per-graph sums of its result. -/
theorem v39_at14 : W14 m ρ c (Proc.devRef .tc main_v39)
    = sumsK (W11 m ρ c (Proc.devRef .tc main_v36)) (W11 m ρ c (Proc.devRef .tc main_arg3)) := by
  show after hostOps4_2 (after hostOps4_1 (after hostOps4 (W11 m ρ c))) (Proc.devRef .tc main_v39) = _
  generalize W11 m ρ c = V
  after_results
  rfl

/-- After the fourth region: the column of clipped per-graph node counts. -/
theorem v45_at14 : W14 m ρ c (Proc.devRef .tc main_v45)
    = colK64 (countsK (W11 m ρ c (Proc.devRef .tc main_arg3))) := by
  show after hostOps4_2 (after hostOps4_1 (after hostOps4 (W11 m ρ c))) (Proc.devRef .tc main_v45) = _
  generalize W11 m ρ c = V
  after_results
  rfl

end Cert.KernelIdeal.Chain

end
-- ==== Proof.Spec.lean ====
/-
  The three per-node stages of a two-layer graph convolution with mean pooling, each as one function of whole arrays
  on the extended reals, read entry by entry. A node's features are scaled by a per-node factor kept in a one-column
  array (the inverse square root of a degree, or a node count), and then either multiplied by a small weight matrix,
  or passed through the leaky rectifier, or (for the pooled sums) divided by the count before the final product.
  Entry (p, q) of each result depends on row p of the features, on the factor of row p, and on column q of the weights.
-/
import Idealize.ShloMosaic.Lib.ValueIdx
import Idealize.ShloMosaic.PureOps.Ideal

noncomputable section

open scoped BigOperators

namespace Cert.GraphConv

open Idealize.ShloMosaic Idealize.ShloMosaic.ValueIdx

/-- The leaky rectifier with slope 0.01 (as its single-precision value): a positive number is kept, any other is
    multiplied by the slope. At zero both branches give zero, so "positive" and "non-negative" tests agree. -/
def leaky (y : EReal) : EReal := if 0 < y then y else y * Ideal.ofBits .f32 0x3C23D70A#32

/-- Rows scaled by their factor, then the matrix product: entry (p, q) is the sum over j of
    (X (p, j) · D (p, 0)) · W (j, q). -/
def scaleMatmul {a k b : ℕ} (X : (⟨2, ![a, k]⟩ : Shape).Idx → EReal) (D : (⟨2, ![a, 1]⟩ : Shape).Idx → EReal)
    (W : (⟨2, ![k, b]⟩ : Shape).Idx → EReal) : (⟨2, ![a, b]⟩ : Shape).Idx → EReal :=
  fun i => ∑ j : Fin k, (X (ix2 (i 0) j) * D (ix2 (i 0) (0 : Fin 1))) * W (ix2 j (i 1))

/-- Rows scaled by their factor, then the leaky rectifier: entry (p, q) is leaky (M (p, q) · D (p, 0)). -/
def scaleLeaky {a b : ℕ} (M : (⟨2, ![a, b]⟩ : Shape).Idx → EReal) (D : (⟨2, ![a, 1]⟩ : Shape).Idx → EReal) :
    (⟨2, ![a, b]⟩ : Shape).Idx → EReal :=
  fun i => leaky (M (ix2 (i 0) (i 1)) * D (ix2 (i 0) (0 : Fin 1)))

/-- Rows divided by their count, then the matrix product: entry (p, q) is the sum over j of
    (S (p, j) / C (p, 0)) · W (j, q). -/
def meanMatmul {a k b : ℕ} (S : (⟨2, ![a, k]⟩ : Shape).Idx → EReal) (C : (⟨2, ![a, 1]⟩ : Shape).Idx → EReal)
    (W : (⟨2, ![k, b]⟩ : Shape).Idx → EReal) : (⟨2, ![a, b]⟩ : Shape).Idx → EReal :=
  fun i => ∑ j : Fin k, Ideal.div (S (ix2 (i 0) j)) (C (ix2 (i 0) (0 : Fin 1))) * W (ix2 j (i 1))

theorem scaleMatmul_ix2 {a k b : ℕ} (X : (⟨2, ![a, k]⟩ : Shape).Idx → EReal) (D : (⟨2, ![a, 1]⟩ : Shape).Idx → EReal)
    (W : (⟨2, ![k, b]⟩ : Shape).Idx → EReal) (p : Fin a) (q : Fin b) :
    scaleMatmul X D W (ix2 p q) = ∑ j : Fin k, (X (ix2 p j) * D (ix2 p (0 : Fin 1))) * W (ix2 j q) := rfl

theorem scaleLeaky_ix2 {a b : ℕ} (M : (⟨2, ![a, b]⟩ : Shape).Idx → EReal) (D : (⟨2, ![a, 1]⟩ : Shape).Idx → EReal)
    (p : Fin a) (q : Fin b) : scaleLeaky M D (ix2 p q) = leaky (M (ix2 p q) * D (ix2 p (0 : Fin 1))) := rfl

theorem meanMatmul_ix2 {a k b : ℕ} (S : (⟨2, ![a, k]⟩ : Shape).Idx → EReal) (C : (⟨2, ![a, 1]⟩ : Shape).Idx → EReal)
    (W : (⟨2, ![k, b]⟩ : Shape).Idx → EReal) (p : Fin a) (q : Fin b) :
    meanMatmul S C W (ix2 p q) = ∑ j : Fin k, Ideal.div (S (ix2 p j)) (C (ix2 p (0 : Fin 1))) * W (ix2 j q) := rfl

end Cert.GraphConv

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.Payload.lean ====
/-
  The five kernel bodies' stored values, read at one entry (p, q) of the output block, on the extended reals.
  Each body takes a block of rows, a one-column block holding a per-row factor, and (for the two products) a whole
  weight matrix. Changing the float format is the identity on the extended reals, the product of the matrix unit into
  a zero accumulator is the plain sum over the contracted position, and the per-row factor broadcast along the row is
  the factor of row p. So entry (p, q) is: for the scaled products, the sum over j of (x (p, j) · f (p)) · w (j, q);
  for the rectifier stages, leaky (x (p, q) · f (p)); for the pooled product, the sum over j of (x (p, j) / f (p)) · w (j, q).
-/
import proofs.«108006_j68547678044330_1_alg».proof.Proof.Gen.KernelIdeal.Skeleton
import proofs.«108006_j68547678044330_1_alg».proof.Proof.Spec
import proofs.«108006_j68547678044330_1_alg».proof.Proof.LibMatmul
import proofs.«108006_j68547678044330_1_alg».proof.Proof.LibColumns
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.GraphConv

/-- A one-column block cast to its own shape and broadcast along the row reads, at (p, j), the column at (p, 0). -/
theorem column_apply {a b : ℕ} (v : (⟨2, ![a, 1]⟩ : Shape).Idx → EReal) (hc : (⟨2, ![a, 1]⟩ : Shape).ShapeCasts ⟨2, ![a, 1]⟩)
    (hb : (⟨2, ![a, 1]⟩ : Shape).Broadcasts ⟨2, ![a, b]⟩) (p : Fin a) (j : Fin b) :
    broadcastTo ⟨2, ![a, b]⟩ (shapeCast ⟨2, ![a, 1]⟩ v hc) hb (ix2 p j) = v (ix2 p (0 : Fin 1)) := by
  rw [shapeCast_self]
  exact broadcastTo_a1_ab_apply v hb p j

/-- The rectifier as the bodies spell it — keep y where y > 0, else y times the slope — is `leaky`. -/
theorem select_gt_eq_leaky (y : EReal) :
    Scalar.select (FloatOps.cmpf (F := Ideal) (φ := .f32) .ogt y (Scalar.ofBits .f32 0x00000000#32)) y
      (FloatOps.mulf (F := Ideal) (φ := .f32) y (Scalar.ofBits .f32 0x3C23D70A#32)) = leaky y := by
  have hs : ∀ b : BitVec (FTy.f32).bits, Scalar.ofBits (F := Ideal) .f32 b = Ideal.ofBits .f32 b := fun _ => rfl
  unfold leaky
  simp only [Scalar.select, Ideal.cmpf_def, hs, Ideal.cmp, Ideal.ofBits_zero_f32]
  by_cases h : (0 : EReal) < y
  · simp [h]
  · simp [h]

theorem pay0_apply (x0 : Vec Ideal S10000x128 .f32) (x1 : Vec Ideal S10000x1 .f32) (x2 : Vec Ideal S128x64 .f32)
    (p : Fin 10000) (q : Fin 64) :
    k0_pay1 (F := Ideal) x0 x1 x2 (ix2 p q) = ∑ j : Fin 128, (x0 (ix2 p j) * x1 (ix2 p (0 : Fin 1))) * x2 (ix2 j q) := by
  unfold k0_pay1
  refine (matmul_zero_ix2 dot_S10000x128_S128x64_S10000x64_1_0_0_1_n_n rfl rfl rfl rfl rfl rfl none _ _ p q).trans ?_
  refine Finset.sum_congr rfl fun j _ => ?_
  rw [truncf_apply, truncf_apply, mulf_apply, column_apply]

theorem pay2_apply (x0 : Vec Ideal S10000x64 .f32) (x1 : Vec Ideal S10000x1 .f32) (x2 : Vec Ideal S64x32 .f32)
    (p : Fin 10000) (q : Fin 32) :
    k2_pay1 (F := Ideal) x0 x1 x2 (ix2 p q) = ∑ j : Fin 64, (x0 (ix2 p j) * x1 (ix2 p (0 : Fin 1))) * x2 (ix2 j q) := by
  unfold k2_pay1
  refine (matmul_zero_ix2 dot_S10000x64_S64x32_S10000x32_1_0_0_1_n_n rfl rfl rfl rfl rfl rfl none _ _ p q).trans ?_
  refine Finset.sum_congr rfl fun j _ => ?_
  rw [truncf_apply, truncf_apply, mulf_apply, column_apply, shapeCast_self]

theorem pay4_apply (x0 : Vec Ideal S64x32 .f32) (x1 : Vec Ideal S64x1 .f32) (x2 : Vec Ideal S32x16 .f32)
    (p : Fin 64) (q : Fin 16) :
    k4_pay1 (F := Ideal) x0 x1 x2 (ix2 p q) = ∑ j : Fin 32, Ideal.div (x0 (ix2 p j)) (x1 (ix2 p (0 : Fin 1))) * x2 (ix2 j q) := by
  unfold k4_pay1
  refine (matmul_zero_ix2 dot_S64x32_S32x16_S64x16_1_0_0_1_n_n rfl rfl rfl rfl rfl rfl none _ _ p q).trans ?_
  refine Finset.sum_congr rfl fun j _ => ?_
  rw [truncf_apply, truncf_apply, divf_apply, column_apply, shapeCast_self]

theorem pay1_apply (x0 : Vec Ideal S10000x64 .f32) (x1 : Vec Ideal S10000x1 .f32) (p : Fin 10000) (q : Fin 64) :
    k1_pay1 (F := Ideal) x0 x1 (ix2 p q) = leaky (x0 (ix2 p q) * x1 (ix2 p (0 : Fin 1))) := by
  unfold k1_pay1
  simp only [select_apply, cmpf_apply, mulf_apply, broadcast_apply, shapeCast_self, broadcastTo_a1_ab_apply]
  exact select_gt_eq_leaky _

theorem pay3_apply (x0 : Vec Ideal S10000x32 .f32) (x1 : Vec Ideal S10000x1 .f32) (p : Fin 10000) (q : Fin 32) :
    k3_pay1 (F := Ideal) x0 x1 (ix2 p q) = leaky (x0 (ix2 p q) * x1 (ix2 p (0 : Fin 1))) := by
  unfold k3_pay1
  simp only [select_apply, cmpf_apply, mulf_apply, broadcast_apply, shapeCast_self, broadcastTo_a1_ab_apply]
  exact select_gt_eq_leaky _

end Cert.KernelIdeal.Payload

end
-- ==== Proof.Blocks0.lean ====
/-
  Region 0, from blocks to the array. At grid point t the output window holds rows 10000 t … 10000 t + 9999 of the
  result; entry (p, q) of that block is the sum over j of (X (10000 t + p, j) · D (10000 t + p, 0)) · W (j, q), which is
  entry (10000 t + p, q) of the scaled product of the whole arrays. Row r of the array lies in block r / 10000, so the
  ten blocks tile the array and it ends holding the scaled product.
-/
import proofs.«108006_j68547678044330_1_alg».proof.Proof.Gen.KernelIdeal.Frame
import proofs.«108006_j68547678044330_1_alg».proof.Proof.Spec
import proofs.«108006_j68547678044330_1_alg».proof.Proof.Payload
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Blocks

open Cert.KernelIdeal Cert.KernelIdeal.Gen Cert.GraphConv Cert.KernelIdeal.Payload

variable (V : (c : Dev nD) → (b : Ref sig .tc) → Buf (Elt Ideal) ((c : Thread nD τ).loc b))

theorem hz0 : (![0, 0] : Fin 2 → Nat) = fun _ => 0 := funext fun a => by fin_cases a <;> rfl

/-- The windows' block indices at each of the ten grid points: the row-blocked windows sit at row block t, column
    block 0; the weight window sits at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry x of the feature window's block at point t is the array's entry k, when k is x moved down by t blocks of rows. -/
theorem blk0_0_apply (c : Dev nD) (t : Fin cfg0.N) (x : S10000x128.Idx) (k : S100000x128.Idx)
    (hk0 : (k 0).val = t.val * 10000 + (x 0).val) (hk1 : (k 1).val = (x 1).val) :
    (iblk0 V c 0 t : Vec Ideal S10000x128 .f32) x = (V c main_arg0 : S100000x128.Idx → Elt Ideal .f32) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 10000 + 1 * (x 0).val = (k 0).val; rw [e0, hk0]; omega
  | ⟨1, _⟩ => show win0_0.index t (1 : Fin 2) * 128 + 1 * (x 1).val = (k 1).val; rw [e1, hk1]; omega

/-- Entry x of the factor window's block at point t is the factor array's entry k, k being x moved down by t blocks of rows. -/
theorem blk0_1_apply (c : Dev nD) (t : Fin cfg0.N) (x : S10000x1.Idx) (k : S100000x1.Idx)
    (hk0 : (k 0).val = t.val * 10000 + (x 0).val) (hk1 : (k 1).val = (x 1).val) :
    (iblk0 V c 1 t : Vec Ideal S10000x1 .f32) x = (V c main_v10 : S100000x1.Idx → Elt Ideal .f32) k := by
  obtain ⟨-, -, e0, e1, -⟩ := idx_facts0 t
  unfold iblk0
  rw [View.read_apply]
  show V c main_v10 _ = V c main_v10 _
  congr 1
  funext a
  apply Fin.ext
  match a with
  | ⟨0, _⟩ => show win0_1.index t (0 : Fin 2) * 10000 + 1 * (x 0).val = (k 0).val; rw [e0, hk0]; omega
  | ⟨1, _⟩ => show win0_1.index t (1 : Fin 2) * 1 + 1 * (x 1).val = (k 1).val; rw [e1, hk1]; omega

/-- The weight window's block at every point is the whole weight array. -/
theorem blk0_2_apply (c : Dev nD) (t : Fin cfg0.N) (x : S128x64.Idx) :
    (iblk0 V c 2 t : Vec Ideal S128x64 .f32) x = (V c main_arg4 : S128x64.Idx → Elt Ideal .f32) x := by
  obtain ⟨-, -, -, -, e0, e1, -⟩ := idx_facts0 t
  unfold iblk0
  rw [View.read_apply]
  show V c main_arg4 _ = V c main_arg4 _
  congr 1
  funext a
  apply Fin.ext
  match a with
  | ⟨0, _⟩ => show win0_2.index t (0 : Fin 2) * 128 + 1 * (x 0).val = (x 0).val; rw [e0]; omega
  | ⟨1, _⟩ => show win0_2.index t (1 : Fin 2) * 64 + 1 * (x 1).val = (x 1).val; rw [e1]; omega

/-- Reading the output window's block at point t off an array: entry x of the block is the array's entry k, k being x
    moved down by t blocks of rows. -/
theorem blk0_3_read (t : Fin cfg0.N) (G : S100000x64.Idx → Elt Ideal .f32) (x : S10000x64.Idx) (k : S100000x64.Idx)
    (hk0 : (k 0).val = t.val * 10000 + (x 0).val) (hk1 : (k 1).val = (x 1).val) :
    (((cfg0.win 3).blk t).view.read (Elt Ideal) G : Vec Ideal S10000x64 .f32) x = G k := by
  obtain ⟨-, -, -, -, -, -, e0, e1⟩ := idx_facts0 t
  rw [View.read_apply]
  show G _ = G _
  congr 1
  funext a
  apply Fin.ext
  match a with
  | ⟨0, _⟩ => show win0_3.index t (0 : Fin 2) * 10000 + 1 * (x 0).val = (k 0).val; rw [e0, hk0]; omega
  | ⟨1, _⟩ => show win0_3.index t (1 : Fin 2) * 64 + 1 * (x 1).val = (k 1).val; rw [e1, hk1]; omega

/-- WHAT POINT t WRITES BACK is block t of the scaled product of the arrays as the region finds them. -/
theorem flushed0_eq (c : Dev nD) (t : Fin cfg0.N) :
    (dat0 (F := Ideal) V c).flushed 3 t
      = ((cfg0.win 3).blk t).view.read (Elt Ideal) (scaleMatmul (V c main_arg0) (V c main_v10) (V c main_arg4)) := by
  show (cfg0.win 3).cut (grid0.coords t) ((dat0 V c).after 3 t) = _
  rw [after0_3]
  unfold out0_3
  rw [View.canon_unit_zero hz0]
  simp only [View.ld_unit_zero (S := S10000x128) hz0, View.ld_unit_zero (S := S10000x1) hz0, View.ld_unit_zero (S := S128x64) hz0]
  funext y
  show k0_pay1 (iblk0 V c 0 t) (iblk0 V c 1 t) (iblk0 V c 2 t) y = _
  obtain ⟨p, q, rfl⟩ : ∃ (p : Fin 10000) (q : Fin 64), y = ix2 p q := ⟨y 0, y 1, eq_ix2 y⟩
  have ht : t.val < 10 := t.isLt.trans_eq N_0
  have hP : t.val * 10000 + p.val < 100000 := by have := p.isLt; omega
  rw [blk0_3_read t _ (ix2 p q) (ix2 ⟨t.val * 10000 + p.val, hP⟩ q) rfl rfl]
  rw [pay0_apply, scaleMatmul_ix2]
  refine Finset.sum_congr rfl fun j _ => ?_
  rw [blk0_0_apply V c t (ix2 p j) (ix2 ⟨t.val * 10000 + p.val, hP⟩ j) rfl rfl,
    blk0_1_apply V c t (ix2 p (0 : Fin 1)) (ix2 ⟨t.val * 10000 + p.val, hP⟩ (0 : Fin 1)) rfl rfl,
    blk0_2_apply V c t (ix2 j q)]

/-- An index of the array is in point t's block iff each coordinate is in the block's range on its axis. -/
theorem mem_blk0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v13).slice (win0_3.rect t)).set ↔ _
  rw [View.set_slice_whole, Rect.mem_set_unit]
  exact Iff.rfl

/-- THE ARRAY after the region: the ten row blocks tile it (row r lies in block r / 10000), so it ends holding the
    scaled product of the arrays as the region finds them. -/
theorem final0 (c : Dev nD) :
    (dat0 (F := Ideal) V c).arrAt 3 cfg0.N = scaleMatmul (V c main_arg0) (V c main_v10) (V c main_arg4) :=
  (dat0 V c).arrAt_eq_of_cover 3 _ (fun t _ => flushed0_eq V c t) fun i => by
    have hi0 : (i 0).val < 100000 := (i 0).isLt
    have hi1 : (i 1).val < 64 := (i 1).isLt
    have hN : (i 0).val / 10000 < cfg0.N := by rw [show cfg0.N = 10 from N_0]; omega
    refine ⟨⟨(i 0).val / 10000, hN⟩, flush0_3 _, ?_⟩
    rw [mem_blk0]
    obtain ⟨-, -, -, -, -, -, e0, e1⟩ := idx_facts0 ⟨(i 0).val / 10000, hN⟩
    intro a
    match a with
    | ⟨0, _⟩ =>
      show win0_3.index ⟨(i 0).val / 10000, hN⟩ (0 : Fin 2) * 10000 ≤ (i 0).val
        ∧ (i 0).val < win0_3.index ⟨(i 0).val / 10000, hN⟩ (0 : Fin 2) * 10000 + 10000
      rw [e0]
      show (i 0).val / 10000 * 10000 ≤ (i 0).val ∧ (i 0).val < (i 0).val / 10000 * 10000 + 10000
      omega
    | ⟨1, _⟩ =>
      show win0_3.index ⟨(i 0).val / 10000, hN⟩ (1 : Fin 2) * 64 ≤ (i 1).val
        ∧ (i 1).val < win0_3.index ⟨(i 0).val / 10000, hN⟩ (1 : Fin 2) * 64 + 64
      rw [e1]
      omega

end Cert.KernelIdeal.Blocks

end
-- ==== Proof.Blocks1.lean ====
/-
  Region 1, from blocks to the array. At grid point t the output window holds rows 10000 t … 10000 t + 9999 of the
  result; entry (p, q) of that block is the leaky rectifier of M (10000 t + p, q) · D (10000 t + p, 0), which is entry
  (10000 t + p, q) of the scaled and rectified whole array. Row r of the array lies in block r / 10000, so the ten
  blocks tile the array and it ends holding the scaled and rectified array.
-/
import proofs.«108006_j68547678044330_1_alg».proof.Proof.Gen.KernelIdeal.Frame
import proofs.«108006_j68547678044330_1_alg».proof.Proof.Spec
import proofs.«108006_j68547678044330_1_alg».proof.Proof.Payload
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Blocks

open Cert.KernelIdeal Cert.KernelIdeal.Gen Cert.GraphConv Cert.KernelIdeal.Payload

variable (V : (c : Dev nD) → (b : Ref sig .tc) → Buf (Elt Ideal) ((c : Thread nD τ).loc b))

theorem hz1 : (![0, 0] : Fin 2 → Nat) = fun _ => 0 := funext fun a => by fin_cases a <;> rfl

/-- The windows' block indices at each of the ten grid points: every window sits at row block t, column block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Entry x of the feature window's block at point t is the array's entry k, when k is x moved down by t blocks of rows. -/
theorem blk1_0_apply (c : Dev nD) (t : Fin cfg1.N) (x : S10000x64.Idx) (k : S100000x64.Idx)
    (hk0 : (k 0).val = t.val * 10000 + (x 0).val) (hk1 : (k 1).val = (x 1).val) :
    (iblk1 V c 0 t : Vec Ideal S10000x64 .f32) x = (V c main_v23 : S100000x64.Idx → Elt Ideal .f32) k := by
  obtain ⟨e0, e1, -⟩ := idx_facts1 t
  unfold iblk1
  rw [View.read_apply]
  show V c main_v23 _ = V c main_v23 _
  congr 1
  funext a
  apply Fin.ext
  match a with
  | ⟨0, _⟩ => show win1_0.index t (0 : Fin 2) * 10000 + 1 * (x 0).val = (k 0).val; rw [e0, hk0]; omega
  | ⟨1, _⟩ => show win1_0.index t (1 : Fin 2) * 64 + 1 * (x 1).val = (k 1).val; rw [e1, hk1]; omega

/-- Entry x of the factor window's block at point t is the factor array's entry k, k being x moved down by t blocks of rows. -/
theorem blk1_1_apply (c : Dev nD) (t : Fin cfg1.N) (x : S10000x1.Idx) (k : S100000x1.Idx)
    (hk0 : (k 0).val = t.val * 10000 + (x 0).val) (hk1 : (k 1).val = (x 1).val) :
    (iblk1 V c 1 t : Vec Ideal S10000x1 .f32) x = (V c main_v12 : S100000x1.Idx → Elt Ideal .f32) k := by
  obtain ⟨-, -, e0, e1, -⟩ := idx_facts1 t
  unfold iblk1
  rw [View.read_apply]
  show V c main_v12 _ = V c main_v12 _
  congr 1
  funext a
  apply Fin.ext
  match a with
  | ⟨0, _⟩ => show win1_1.index t (0 : Fin 2) * 10000 + 1 * (x 0).val = (k 0).val; rw [e0, hk0]; omega
  | ⟨1, _⟩ => show win1_1.index t (1 : Fin 2) * 1 + 1 * (x 1).val = (k 1).val; rw [e1, hk1]; omega

/-- Reading the output window's block at point t off an array: entry x of the block is the array's entry k, k being x
    moved down by t blocks of rows. -/
theorem blk1_2_read (t : Fin cfg1.N) (G : S100000x64.Idx → Elt Ideal .f32) (x : S10000x64.Idx) (k : S100000x64.Idx)
    (hk0 : (k 0).val = t.val * 10000 + (x 0).val) (hk1 : (k 1).val = (x 1).val) :
    (((cfg1.win 2).blk t).view.read (Elt Ideal) G : Vec Ideal S10000x64 .f32) x = G k := by
  obtain ⟨-, -, -, -, e0, e1⟩ := idx_facts1 t
  rw [View.read_apply]
  show G _ = G _
  congr 1
  funext a
  apply Fin.ext
  match a with
  | ⟨0, _⟩ => show win1_2.index t (0 : Fin 2) * 10000 + 1 * (x 0).val = (k 0).val; rw [e0, hk0]; omega
  | ⟨1, _⟩ => show win1_2.index t (1 : Fin 2) * 64 + 1 * (x 1).val = (k 1).val; rw [e1, hk1]; omega

/-- WHAT POINT t WRITES BACK is block t of the scaled and rectified array as the region finds its inputs. -/
theorem flushed1_eq (c : Dev nD) (t : Fin cfg1.N) :
    (dat1 (F := Ideal) V c).flushed 2 t
      = ((cfg1.win 2).blk t).view.read (Elt Ideal) (scaleLeaky (V c main_v23) (V c main_v12)) := by
  show (cfg1.win 2).cut (grid1.coords t) ((dat1 V c).after 2 t) = _
  rw [after1_2]
  unfold out1_2
  rw [View.canon_unit_zero hz1]
  simp only [View.ld_unit_zero (S := S10000x64) hz1, View.ld_unit_zero (S := S10000x1) hz1]
  funext y
  show k1_pay1 (iblk1 V c 0 t) (iblk1 V c 1 t) y = _
  obtain ⟨p, q, rfl⟩ : ∃ (p : Fin 10000) (q : Fin 64), y = ix2 p q := ⟨y 0, y 1, eq_ix2 y⟩
  have ht : t.val < 10 := t.isLt.trans_eq N_1
  have hP : t.val * 10000 + p.val < 100000 := by have := p.isLt; omega
  rw [blk1_2_read t _ (ix2 p q) (ix2 ⟨t.val * 10000 + p.val, hP⟩ q) rfl rfl]
  rw [pay1_apply, scaleLeaky_ix2]
  rw [blk1_0_apply V c t (ix2 p q) (ix2 ⟨t.val * 10000 + p.val, hP⟩ q) rfl rfl,
    blk1_1_apply V c t (ix2 p (0 : Fin 1)) (ix2 ⟨t.val * 10000 + p.val, hP⟩ (0 : Fin 1)) rfl rfl]

/-- An index of the array is in point t's block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v24).slice (win1_2.rect t)).set ↔ _
  rw [View.set_slice_whole, Rect.mem_set_unit]
  exact Iff.rfl

/-- THE ARRAY after the region: the ten row blocks tile it (row r lies in block r / 10000), so it ends holding the
    scaled and rectified array. -/
theorem final1 (c : Dev nD) :
    (dat1 (F := Ideal) V c).arrAt 2 cfg1.N = scaleLeaky (V c main_v23) (V c main_v12) :=
  (dat1 V c).arrAt_eq_of_cover 2 _ (fun t _ => flushed1_eq V c t) fun i => by
    have hi0 : (i 0).val < 100000 := (i 0).isLt
    have hi1 : (i 1).val < 64 := (i 1).isLt
    have hN : (i 0).val / 10000 < cfg1.N := by rw [show cfg1.N = 10 from N_1]; omega
    refine ⟨⟨(i 0).val / 10000, hN⟩, flush1_2 _, ?_⟩
    rw [mem_blk1]
    obtain ⟨-, -, -, -, e0, e1⟩ := idx_facts1 ⟨(i 0).val / 10000, hN⟩
    intro a
    match a with
    | ⟨0, _⟩ =>
      show win1_2.index ⟨(i 0).val / 10000, hN⟩ (0 : Fin 2) * 10000 ≤ (i 0).val
        ∧ (i 0).val < win1_2.index ⟨(i 0).val / 10000, hN⟩ (0 : Fin 2) * 10000 + 10000
      rw [e0]
      show (i 0).val / 10000 * 10000 ≤ (i 0).val ∧ (i 0).val < (i 0).val / 10000 * 10000 + 10000
      omega
    | ⟨1, _⟩ =>
      show win1_2.index ⟨(i 0).val / 10000, hN⟩ (1 : Fin 2) * 64 ≤ (i 1).val
        ∧ (i 1).val < win1_2.index ⟨(i 0).val / 10000, hN⟩ (1 : Fin 2) * 64 + 64
      rw [e1]
      omega

end Cert.KernelIdeal.Blocks

end
-- ==== Proof.Blocks2.lean ====
/-
  Region 2, from blocks to the array. At grid point t the output window holds rows 10000 t … 10000 t + 9999 of the
  result; entry (p, q) of that block is the sum over j of (X (10000 t + p, j) · D (10000 t + p, 0)) · W (j, q), which is
  entry (10000 t + p, q) of the scaled product of the whole arrays. Row r of the array lies in block r / 10000, so the
  ten blocks tile the array and it ends holding the scaled product.
-/
import proofs.«108006_j68547678044330_1_alg».proof.Proof.Gen.KernelIdeal.Frame
import proofs.«108006_j68547678044330_1_alg».proof.Proof.Spec
import proofs.«108006_j68547678044330_1_alg».proof.Proof.Payload
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Blocks

open Cert.KernelIdeal Cert.KernelIdeal.Gen Cert.GraphConv Cert.KernelIdeal.Payload

variable (V : (c : Dev nD) → (b : Ref sig .tc) → Buf (Elt Ideal) ((c : Thread nD τ).loc b))

theorem hz2 : (![0, 0] : Fin 2 → Nat) = fun _ => 0 := funext fun a => by fin_cases a <;> rfl

/-- The windows' block indices at each of the ten grid points: the row-blocked windows sit at row block t, column
    block 0; the weight window sits at block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry x of the feature window's block at point t is the array's entry k, when k is x moved down by t blocks of rows. -/
theorem blk2_0_apply (c : Dev nD) (t : Fin cfg2.N) (x : S10000x64.Idx) (k : S100000x64.Idx)
    (hk0 : (k 0).val = t.val * 10000 + (x 0).val) (hk1 : (k 1).val = (x 1).val) :
    (iblk2 V c 0 t : Vec Ideal S10000x64 .f32) x = (V c main_v24 : S100000x64.Idx → Elt Ideal .f32) k := by
  obtain ⟨e0, e1, -⟩ := idx_facts2 t
  unfold iblk2
  rw [View.read_apply]
  show V c main_v24 _ = V c main_v24 _
  congr 1
  funext a
  apply Fin.ext
  match a with
  | ⟨0, _⟩ => show win2_0.index t (0 : Fin 2) * 10000 + 1 * (x 0).val = (k 0).val; rw [e0, hk0]; omega
  | ⟨1, _⟩ => show win2_0.index t (1 : Fin 2) * 64 + 1 * (x 1).val = (k 1).val; rw [e1, hk1]; omega

/-- Entry x of the factor window's block at point t is the factor array's entry k, k being x moved down by t blocks of rows. -/
theorem blk2_1_apply (c : Dev nD) (t : Fin cfg2.N) (x : S10000x1.Idx) (k : S100000x1.Idx)
    (hk0 : (k 0).val = t.val * 10000 + (x 0).val) (hk1 : (k 1).val = (x 1).val) :
    (iblk2 V c 1 t : Vec Ideal S10000x1 .f32) x = (V c main_v10 : S100000x1.Idx → Elt Ideal .f32) k := by
  obtain ⟨-, -, e0, e1, -⟩ := idx_facts2 t
  unfold iblk2
  rw [View.read_apply]
  show V c main_v10 _ = V c main_v10 _
  congr 1
  funext a
  apply Fin.ext
  match a with
  | ⟨0, _⟩ => show win2_1.index t (0 : Fin 2) * 10000 + 1 * (x 0).val = (k 0).val; rw [e0, hk0]; omega
  | ⟨1, _⟩ => show win2_1.index t (1 : Fin 2) * 1 + 1 * (x 1).val = (k 1).val; rw [e1, hk1]; omega

/-- The weight window's block at every point is the whole weight array. -/
theorem blk2_2_apply (c : Dev nD) (t : Fin cfg2.N) (x : S64x32.Idx) :
    (iblk2 V c 2 t : Vec Ideal S64x32 .f32) x = (V c main_arg5 : S64x32.Idx → Elt Ideal .f32) x := by
  obtain ⟨-, -, -, -, e0, e1, -⟩ := idx_facts2 t
  unfold iblk2
  rw [View.read_apply]
  show V c main_arg5 _ = V c main_arg5 _
  congr 1
  funext a
  apply Fin.ext
  match a with
  | ⟨0, _⟩ => show win2_2.index t (0 : Fin 2) * 64 + 1 * (x 0).val = (x 0).val; rw [e0]; omega
  | ⟨1, _⟩ => show win2_2.index t (1 : Fin 2) * 32 + 1 * (x 1).val = (x 1).val; rw [e1]; omega

/-- Reading the output window's block at point t off an array: entry x of the block is the array's entry k, k being x
    moved down by t blocks of rows. -/
theorem blk2_3_read (t : Fin cfg2.N) (G : S100000x32.Idx → Elt Ideal .f32) (x : S10000x32.Idx) (k : S100000x32.Idx)
    (hk0 : (k 0).val = t.val * 10000 + (x 0).val) (hk1 : (k 1).val = (x 1).val) :
    (((cfg2.win 3).blk t).view.read (Elt Ideal) G : Vec Ideal S10000x32 .f32) x = G k := by
  obtain ⟨-, -, -, -, -, -, e0, e1⟩ := idx_facts2 t
  rw [View.read_apply]
  show G _ = G _
  congr 1
  funext a
  apply Fin.ext
  match a with
  | ⟨0, _⟩ => show win2_3.index t (0 : Fin 2) * 10000 + 1 * (x 0).val = (k 0).val; rw [e0, hk0]; omega
  | ⟨1, _⟩ => show win2_3.index t (1 : Fin 2) * 32 + 1 * (x 1).val = (k 1).val; rw [e1, hk1]; omega

/-- WHAT POINT t WRITES BACK is block t of the scaled product of the arrays as the region finds them. -/
theorem flushed2_eq (c : Dev nD) (t : Fin cfg2.N) :
    (dat2 (F := Ideal) V c).flushed 3 t
      = ((cfg2.win 3).blk t).view.read (Elt Ideal) (scaleMatmul (V c main_v24) (V c main_v10) (V c main_arg5)) := by
  show (cfg2.win 3).cut (grid2.coords t) ((dat2 V c).after 3 t) = _
  rw [after2_3]
  unfold out2_3
  rw [View.canon_unit_zero hz2]
  simp only [View.ld_unit_zero (S := S10000x64) hz2, View.ld_unit_zero (S := S10000x1) hz2, View.ld_unit_zero (S := S64x32) hz2]
  funext y
  show k2_pay1 (iblk2 V c 0 t) (iblk2 V c 1 t) (iblk2 V c 2 t) y = _
  obtain ⟨p, q, rfl⟩ : ∃ (p : Fin 10000) (q : Fin 32), y = ix2 p q := ⟨y 0, y 1, eq_ix2 y⟩
  have ht : t.val < 10 := t.isLt.trans_eq N_2
  have hP : t.val * 10000 + p.val < 100000 := by have := p.isLt; omega
  rw [blk2_3_read t _ (ix2 p q) (ix2 ⟨t.val * 10000 + p.val, hP⟩ q) rfl rfl]
  rw [pay2_apply, scaleMatmul_ix2]
  refine Finset.sum_congr rfl fun j _ => ?_
  rw [blk2_0_apply V c t (ix2 p j) (ix2 ⟨t.val * 10000 + p.val, hP⟩ j) rfl rfl,
    blk2_1_apply V c t (ix2 p (0 : Fin 1)) (ix2 ⟨t.val * 10000 + p.val, hP⟩ (0 : Fin 1)) rfl rfl,
    blk2_2_apply V c t (ix2 j q)]

/-- An index of the array is in point t's block iff each coordinate is in the block's range on its axis. -/
theorem mem_blk2 (t : Fin cfg2.N) (i : S100000x32.Idx) :
    i ∈ ((cfg2.win 3).blk t).view.set ↔ ∀ a : Fin 2, win2_3.index t a * S10000x32.size a ≤ (i a).val
      ∧ (i a).val < win2_3.index t a * S10000x32.size a + S10000x32.size a := by
  show i ∈ ((View.whole main_v25).slice (win2_3.rect t)).set ↔ _
  rw [View.set_slice_whole, Rect.mem_set_unit]
  exact Iff.rfl

/-- THE ARRAY after the region: the ten row blocks tile it (row r lies in block r / 10000), so it ends holding the
    scaled product of the arrays as the region finds them. -/
theorem final2 (c : Dev nD) :
    (dat2 (F := Ideal) V c).arrAt 3 cfg2.N = scaleMatmul (V c main_v24) (V c main_v10) (V c main_arg5) :=
  (dat2 V c).arrAt_eq_of_cover 3 _ (fun t _ => flushed2_eq V c t) fun i => by
    have hi0 : (i 0).val < 100000 := (i 0).isLt
    have hi1 : (i 1).val < 32 := (i 1).isLt
    have hN : (i 0).val / 10000 < cfg2.N := by rw [show cfg2.N = 10 from N_2]; omega
    refine ⟨⟨(i 0).val / 10000, hN⟩, flush2_3 _, ?_⟩
    rw [mem_blk2]
    obtain ⟨-, -, -, -, -, -, e0, e1⟩ := idx_facts2 ⟨(i 0).val / 10000, hN⟩
    intro a
    match a with
    | ⟨0, _⟩ =>
      show win2_3.index ⟨(i 0).val / 10000, hN⟩ (0 : Fin 2) * 10000 ≤ (i 0).val
        ∧ (i 0).val < win2_3.index ⟨(i 0).val / 10000, hN⟩ (0 : Fin 2) * 10000 + 10000
      rw [e0]
      show (i 0).val / 10000 * 10000 ≤ (i 0).val ∧ (i 0).val < (i 0).val / 10000 * 10000 + 10000
      omega
    | ⟨1, _⟩ =>
      show win2_3.index ⟨(i 0).val / 10000, hN⟩ (1 : Fin 2) * 32 ≤ (i 1).val
        ∧ (i 1).val < win2_3.index ⟨(i 0).val / 10000, hN⟩ (1 : Fin 2) * 32 + 32
      rw [e1]
      omega

end Cert.KernelIdeal.Blocks

end
-- ==== Proof.Blocks3.lean ====
/-
  Region 3, from blocks to the array. At grid point t the output window holds rows 10000 t … 10000 t + 9999 of the
  result; entry (p, q) of that block is the leaky rectifier of M (10000 t + p, q) · D (10000 t + p, 0), which is entry
  (10000 t + p, q) of the scaled and rectified whole array. Row r of the array lies in block r / 10000, so the ten
  blocks tile the array and it ends holding the scaled and rectified array.
-/
import proofs.«108006_j68547678044330_1_alg».proof.Proof.Gen.KernelIdeal.Frame
import proofs.«108006_j68547678044330_1_alg».proof.Proof.Spec
import proofs.«108006_j68547678044330_1_alg».proof.Proof.Payload
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Blocks

open Cert.KernelIdeal Cert.KernelIdeal.Gen Cert.GraphConv Cert.KernelIdeal.Payload

variable (V : (c : Dev nD) → (b : Ref sig .tc) → Buf (Elt Ideal) ((c : Thread nD τ).loc b))

theorem hz3 : (![0, 0] : Fin 2 → Nat) = fun _ => 0 := funext fun a => by fin_cases a <;> rfl

/-- The windows' block indices at each of the ten grid points: every window sits at row block t, column block 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- Entry x of the feature window's block at point t is the array's entry k, when k is x moved down by t blocks of rows. -/
theorem blk3_0_apply (c : Dev nD) (t : Fin cfg3.N) (x : S10000x32.Idx) (k : S100000x32.Idx)
    (hk0 : (k 0).val = t.val * 10000 + (x 0).val) (hk1 : (k 1).val = (x 1).val) :
    (iblk3 V c 0 t : Vec Ideal S10000x32 .f32) x = (V c main_v35 : S100000x32.Idx → Elt Ideal .f32) k := by
  obtain ⟨e0, e1, -⟩ := idx_facts3 t
  unfold iblk3
  rw [View.read_apply]
  show V c main_v35 _ = V c main_v35 _
  congr 1
  funext a
  apply Fin.ext
  match a with
  | ⟨0, _⟩ => show win3_0.index t (0 : Fin 2) * 10000 + 1 * (x 0).val = (k 0).val; rw [e0, hk0]; omega
  | ⟨1, _⟩ => show win3_0.index t (1 : Fin 2) * 32 + 1 * (x 1).val = (k 1).val; rw [e1, hk1]; omega

/-- Entry x of the factor window's block at point t is the factor array's entry k, k being x moved down by t blocks of rows. -/
theorem blk3_1_apply (c : Dev nD) (t : Fin cfg3.N) (x : S10000x1.Idx) (k : S100000x1.Idx)
    (hk0 : (k 0).val = t.val * 10000 + (x 0).val) (hk1 : (k 1).val = (x 1).val) :
    (iblk3 V c 1 t : Vec Ideal S10000x1 .f32) x = (V c main_v12 : S100000x1.Idx → Elt Ideal .f32) k := by
  obtain ⟨-, -, e0, e1, -⟩ := idx_facts3 t
  unfold iblk3
  rw [View.read_apply]
  show V c main_v12 _ = V c main_v12 _
  congr 1
  funext a
  apply Fin.ext
  match a with
  | ⟨0, _⟩ => show win3_1.index t (0 : Fin 2) * 10000 + 1 * (x 0).val = (k 0).val; rw [e0, hk0]; omega
  | ⟨1, _⟩ => show win3_1.index t (1 : Fin 2) * 1 + 1 * (x 1).val = (k 1).val; rw [e1, hk1]; omega

/-- Reading the output window's block at point t off an array: entry x of the block is the array's entry k, k being x
    moved down by t blocks of rows. -/
theorem blk3_2_read (t : Fin cfg3.N) (G : S100000x32.Idx → Elt Ideal .f32) (x : S10000x32.Idx) (k : S100000x32.Idx)
    (hk0 : (k 0).val = t.val * 10000 + (x 0).val) (hk1 : (k 1).val = (x 1).val) :
    (((cfg3.win 2).blk t).view.read (Elt Ideal) G : Vec Ideal S10000x32 .f32) x = G k := by
  obtain ⟨-, -, -, -, e0, e1⟩ := idx_facts3 t
  rw [View.read_apply]
  show G _ = G _
  congr 1
  funext a
  apply Fin.ext
  match a with
  | ⟨0, _⟩ => show win3_2.index t (0 : Fin 2) * 10000 + 1 * (x 0).val = (k 0).val; rw [e0, hk0]; omega
  | ⟨1, _⟩ => show win3_2.index t (1 : Fin 2) * 32 + 1 * (x 1).val = (k 1).val; rw [e1, hk1]; omega

/-- WHAT POINT t WRITES BACK is block t of the scaled and rectified array as the region finds its inputs. -/
theorem flushed3_eq (c : Dev nD) (t : Fin cfg3.N) :
    (dat3 (F := Ideal) V c).flushed 2 t
      = ((cfg3.win 2).blk t).view.read (Elt Ideal) (scaleLeaky (V c main_v35) (V c main_v12)) := by
  show (cfg3.win 2).cut (grid3.coords t) ((dat3 V c).after 2 t) = _
  rw [after3_2]
  unfold out3_2
  rw [View.canon_unit_zero hz3]
  simp only [View.ld_unit_zero (S := S10000x32) hz3, View.ld_unit_zero (S := S10000x1) hz3]
  funext y
  show k3_pay1 (iblk3 V c 0 t) (iblk3 V c 1 t) y = _
  obtain ⟨p, q, rfl⟩ : ∃ (p : Fin 10000) (q : Fin 32), y = ix2 p q := ⟨y 0, y 1, eq_ix2 y⟩
  have ht : t.val < 10 := t.isLt.trans_eq N_3
  have hP : t.val * 10000 + p.val < 100000 := by have := p.isLt; omega
  rw [blk3_2_read t _ (ix2 p q) (ix2 ⟨t.val * 10000 + p.val, hP⟩ q) rfl rfl]
  rw [pay3_apply, scaleLeaky_ix2]
  rw [blk3_0_apply V c t (ix2 p q) (ix2 ⟨t.val * 10000 + p.val, hP⟩ q) rfl rfl,
    blk3_1_apply V c t (ix2 p (0 : Fin 1)) (ix2 ⟨t.val * 10000 + p.val, hP⟩ (0 : Fin 1)) rfl rfl]

/-- An index of the array is in point t's block iff each coordinate is in the block's range on its axis. -/
theorem mem_blk3 (t : Fin cfg3.N) (i : S100000x32.Idx) :
    i ∈ ((cfg3.win 2).blk t).view.set ↔ ∀ a : Fin 2, win3_2.index t a * S10000x32.size a ≤ (i a).val
      ∧ (i a).val < win3_2.index t a * S10000x32.size a + S10000x32.size a := by
  show i ∈ ((View.whole main_v36).slice (win3_2.rect t)).set ↔ _
  rw [View.set_slice_whole, Rect.mem_set_unit]
  exact Iff.rfl

/-- THE ARRAY after the region: the ten row blocks tile it (row r lies in block r / 10000), so it ends holding the
    scaled and rectified array. -/
theorem final3 (c : Dev nD) :
    (dat3 (F := Ideal) V c).arrAt 2 cfg3.N = scaleLeaky (V c main_v35) (V c main_v12) :=
  (dat3 V c).arrAt_eq_of_cover 2 _ (fun t _ => flushed3_eq V c t) fun i => by
    have hi0 : (i 0).val < 100000 := (i 0).isLt
    have hi1 : (i 1).val < 32 := (i 1).isLt
    have hN : (i 0).val / 10000 < cfg3.N := by rw [show cfg3.N = 10 from N_3]; omega
    refine ⟨⟨(i 0).val / 10000, hN⟩, flush3_2 _, ?_⟩
    rw [mem_blk3]
    obtain ⟨-, -, -, -, e0, e1⟩ := idx_facts3 ⟨(i 0).val / 10000, hN⟩
    intro a
    match a with
    | ⟨0, _⟩ =>
      show win3_2.index ⟨(i 0).val / 10000, hN⟩ (0 : Fin 2) * 10000 ≤ (i 0).val
        ∧ (i 0).val < win3_2.index ⟨(i 0).val / 10000, hN⟩ (0 : Fin 2) * 10000 + 10000
      rw [e0]
      show (i 0).val / 10000 * 10000 ≤ (i 0).val ∧ (i 0).val < (i 0).val / 10000 * 10000 + 10000
      omega
    | ⟨1, _⟩ =>
      show win3_2.index ⟨(i 0).val / 10000, hN⟩ (1 : Fin 2) * 32 ≤ (i 1).val
        ∧ (i 1).val < win3_2.index ⟨(i 0).val / 10000, hN⟩ (1 : Fin 2) * 32 + 32
      rw [e1]
      omega

end Cert.KernelIdeal.Blocks

end
-- ==== Proof.Blocks4.lean ====
/-
  Region 4, from blocks to the array. The grid has one point and every window's block is its whole array, so entry
  (p, q) of what that point writes back is the sum over j of (S (p, j) / C (p, 0)) · W (j, q), entry (p, q) of the mean
  product of the whole arrays; the one block is the whole array, which therefore ends holding the mean product.
-/
import proofs.«108006_j68547678044330_1_alg».proof.Proof.Gen.KernelIdeal.Frame
import proofs.«108006_j68547678044330_1_alg».proof.Proof.Spec
import proofs.«108006_j68547678044330_1_alg».proof.Proof.Payload
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Blocks

open Cert.KernelIdeal Cert.KernelIdeal.Gen Cert.GraphConv Cert.KernelIdeal.Payload

variable (V : (c : Dev nD) → (b : Ref sig .tc) → Buf (Elt Ideal) ((c : Thread nD τ).loc b))

theorem hz4 : (![0, 0] : Fin 2 → Nat) = fun _ => 0 := funext fun a => by fin_cases a <;> rfl

/-- The windows' block indices at the one grid point: every window sits at block (0, 0). -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The pooled-sum window's block is the whole array of pooled sums. -/
theorem blk4_0_apply (c : Dev nD) (t : Fin cfg4.N) (x : S64x32.Idx) :
    (iblk4 V c 0 t : Vec Ideal S64x32 .f32) x = (V c main_v39 : S64x32.Idx → Elt Ideal .f32) x := by
  obtain ⟨e0, e1, -⟩ := idx_facts4 t
  unfold iblk4
  rw [View.read_apply]
  show V c main_v39 _ = V c main_v39 _
  congr 1
  funext a
  apply Fin.ext
  match a with
  | ⟨0, _⟩ => show win4_0.index t (0 : Fin 2) * 64 + 1 * (x 0).val = (x 0).val; rw [e0]; omega
  | ⟨1, _⟩ => show win4_0.index t (1 : Fin 2) * 32 + 1 * (x 1).val = (x 1).val; rw [e1]; omega

/-- The count window's block is the whole array of counts. -/
theorem blk4_1_apply (c : Dev nD) (t : Fin cfg4.N) (x : S64x1.Idx) :
    (iblk4 V c 1 t : Vec Ideal S64x1 .f32) x = (V c main_v45 : S64x1.Idx → Elt Ideal .f32) x := by
  obtain ⟨-, -, e0, e1, -⟩ := idx_facts4 t
  unfold iblk4
  rw [View.read_apply]
  show V c main_v45 _ = V c main_v45 _
  congr 1
  funext a
  apply Fin.ext
  match a with
  | ⟨0, _⟩ => show win4_1.index t (0 : Fin 2) * 64 + 1 * (x 0).val = (x 0).val; rw [e0]; omega
  | ⟨1, _⟩ => show win4_1.index t (1 : Fin 2) * 1 + 1 * (x 1).val = (x 1).val; rw [e1]; omega

/-- The weight window's block is the whole weight array. -/
theorem blk4_2_apply (c : Dev nD) (t : Fin cfg4.N) (x : S32x16.Idx) :
    (iblk4 V c 2 t : Vec Ideal S32x16 .f32) x = (V c main_arg6 : S32x16.Idx → Elt Ideal .f32) x := by
  obtain ⟨-, -, -, -, e0, e1, -⟩ := idx_facts4 t
  unfold iblk4
  rw [View.read_apply]
  show V c main_arg6 _ = V c main_arg6 _
  congr 1
  funext a
  apply Fin.ext
  match a with
  | ⟨0, _⟩ => show win4_2.index t (0 : Fin 2) * 32 + 1 * (x 0).val = (x 0).val; rw [e0]; omega
  | ⟨1, _⟩ => show win4_2.index t (1 : Fin 2) * 16 + 1 * (x 1).val = (x 1).val; rw [e1]; omega

/-- Reading the output window's block off an array gives the array itself. -/
theorem blk4_3_read (t : Fin cfg4.N) (G : S64x16.Idx → Elt Ideal .f32) (x : S64x16.Idx) :
    (((cfg4.win 3).blk t).view.read (Elt Ideal) G : Vec Ideal S64x16 .f32) x = G x := by
  obtain ⟨-, -, -, -, -, -, e0, e1⟩ := idx_facts4 t
  rw [View.read_apply]
  show G _ = G _
  congr 1
  funext a
  apply Fin.ext
  match a with
  | ⟨0, _⟩ => show win4_3.index t (0 : Fin 2) * 64 + 1 * (x 0).val = (x 0).val; rw [e0]; omega
  | ⟨1, _⟩ => show win4_3.index t (1 : Fin 2) * 16 + 1 * (x 1).val = (x 1).val; rw [e1]; omega

/-- WHAT THE POINT WRITES BACK is the (whole-array) block of the mean product of the arrays as the region finds them. -/
theorem flushed4_eq (c : Dev nD) (t : Fin cfg4.N) :
    (dat4 (F := Ideal) V c).flushed 3 t
      = ((cfg4.win 3).blk t).view.read (Elt Ideal) (meanMatmul (V c main_v39) (V c main_v45) (V c main_arg6)) := by
  show (cfg4.win 3).cut (grid4.coords t) ((dat4 V c).after 3 t) = _
  rw [after4_3]
  unfold out4_3
  rw [View.canon_unit_zero hz4]
  simp only [View.ld_unit_zero (S := S64x32) hz4, View.ld_unit_zero (S := S64x1) hz4, View.ld_unit_zero (S := S32x16) hz4]
  funext y
  show k4_pay1 (iblk4 V c 0 t) (iblk4 V c 1 t) (iblk4 V c 2 t) y = _
  obtain ⟨p, q, rfl⟩ : ∃ (p : Fin 64) (q : Fin 16), y = ix2 p q := ⟨y 0, y 1, eq_ix2 y⟩
  rw [blk4_3_read t _ (ix2 p q)]
  rw [pay4_apply, meanMatmul_ix2]
  refine Finset.sum_congr rfl fun j _ => ?_
  rw [blk4_0_apply V c t (ix2 p j), blk4_1_apply V c t (ix2 p (0 : Fin 1)), blk4_2_apply V c t (ix2 j q)]

/-- An index of the array is in the point's block iff each coordinate is in the block's range on its axis. -/
theorem mem_blk4 (t : Fin cfg4.N) (i : S64x16.Idx) :
    i ∈ ((cfg4.win 3).blk t).view.set ↔ ∀ a : Fin 2, win4_3.index t a * S64x16.size a ≤ (i a).val
      ∧ (i a).val < win4_3.index t a * S64x16.size a + S64x16.size a := by
  show i ∈ ((View.whole main_v46).slice (win4_3.rect t)).set ↔ _
  rw [View.set_slice_whole, Rect.mem_set_unit]
  exact Iff.rfl

/-- THE ARRAY after the region: the one block is the whole array, so it ends holding the mean product of the arrays
    as the region finds them. -/
theorem final4 (c : Dev nD) :
    (dat4 (F := Ideal) V c).arrAt 3 cfg4.N = meanMatmul (V c main_v39) (V c main_v45) (V c main_arg6) :=
  (dat4 V c).arrAt_eq_of_cover 3 _ (fun t _ => flushed4_eq V c t) fun i => by
    have hi0 : (i 0).val < 64 := (i 0).isLt
    have hi1 : (i 1).val < 16 := (i 1).isLt
    have hN : 0 < cfg4.N := by rw [show cfg4.N = 1 from N_4]; omega
    refine ⟨⟨0, hN⟩, flush4_3 _, ?_⟩
    rw [mem_blk4]
    obtain ⟨-, -, -, -, -, -, e0, e1⟩ := idx_facts4 ⟨0, hN⟩
    intro a
    match a with
    | ⟨0, _⟩ =>
      show win4_3.index ⟨0, hN⟩ (0 : Fin 2) * 64 ≤ (i 0).val ∧ (i 0).val < win4_3.index ⟨0, hN⟩ (0 : Fin 2) * 64 + 64
      rw [e0]
      omega
    | ⟨1, _⟩ =>
      show win4_3.index ⟨0, hN⟩ (1 : Fin 2) * 16 ≤ (i 1).val ∧ (i 1).val < win4_3.index ⟨0, hN⟩ (1 : Fin 2) * 16 + 16
      rw [e1]
      omega

end Cert.KernelIdeal.Blocks

end
-- ==== Proof.KChain.lean ====
/-
  The result of the idealized kernel program as ONE function of its seven arguments. Each kernel region leaves in its
  output array the corresponding stage of the specification applied to the arrays it read, and between the regions the
  host aggregates along the edges, so the result buffer ends at: the pooled product of the per-graph sums of the second
  layer's activations; the second layer is the rectified, in-degree-scaled aggregation of the out-degree-scaled product of
  the first layer's activations with the second weight matrix; the first layer likewise from the features.
-/
import proofs.«108006_j68547678044330_1_alg».proof.Proof.KHost
import proofs.«108006_j68547678044330_1_alg».proof.Proof.Blocks0
import proofs.«108006_j68547678044330_1_alg».proof.Proof.Blocks1
import proofs.«108006_j68547678044330_1_alg».proof.Proof.Blocks2
import proofs.«108006_j68547678044330_1_alg».proof.Proof.Blocks3
import proofs.«108006_j68547678044330_1_alg».proof.Proof.Blocks4
import proofs.«108006_j68547678044330_1_alg».proof.Proof.Spec

set_option maxRecDepth 16384

noncomputable section

namespace Cert.KernelIdeal.Chain

open Cert.KernelIdeal Cert.KernelIdeal.Gen Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After the first region: the out-degree-scaled features times the first weight matrix. -/
theorem v13_at6 : W6 m ρ c (Proc.devRef .tc main_v13) = scaleMatmul (m ((c : Thread nD τ).loc main_arg0)) (colK (F := Ideal) (Host.rsqrt (degreeK (F := Ideal) (m ((c : Thread nD τ).loc main_arg1))))) (m ((c : Thread nD τ).loc main_arg4)) := by
  refine (W6_arr m ρ c 3).trans ((Blocks.final0 (V5 m ρ) c).trans ?_)
  show scaleMatmul (W5 m ρ c (Proc.devRef .tc main_arg0)) (W5 m ρ c (Proc.devRef .tc main_v10)) (W5 m ρ c (Proc.devRef .tc main_arg4)) = _
  rw [arg0_at5, v10_at5, arg4_at5]

/-- After the second region: the first layer's activations. -/
theorem v24_at8 : W8 m ρ c (Proc.devRef .tc main_v24) = scaleLeaky (aggK64 (F := Ideal) (scaleMatmul (m ((c : Thread nD τ).loc main_arg0)) (colK (F := Ideal) (Host.rsqrt (degreeK (F := Ideal) (m ((c : Thread nD τ).loc main_arg1))))) (m ((c : Thread nD τ).loc main_arg4))) (m ((c : Thread nD τ).loc main_arg1)) (m ((c : Thread nD τ).loc main_arg2))) (colK (F := Ideal) (Host.rsqrt (degreeK (F := Ideal) (m ((c : Thread nD τ).loc main_arg2))))) := by
  refine (W8_arr m ρ c 2).trans ((Blocks.final1 (V7 m ρ) c).trans ?_)
  show scaleLeaky (W7 m ρ c (Proc.devRef .tc main_v23)) (W7 m ρ c (Proc.devRef .tc main_v12)) = _
  rw [v23_at7, v12_at7, v12_at5, v13_at6, arg1_at6, arg2_at6]

/-- After the third region: the out-degree-scaled activations times the second weight matrix. -/
theorem v25_at9 : W9 m ρ c (Proc.devRef .tc main_v25) = scaleMatmul (scaleLeaky (aggK64 (F := Ideal) (scaleMatmul (m ((c : Thread nD τ).loc main_arg0)) (colK (F := Ideal) (Host.rsqrt (degreeK (F := Ideal) (m ((c : Thread nD τ).loc main_arg1))))) (m ((c : Thread nD τ).loc main_arg4))) (m ((c : Thread nD τ).loc main_arg1)) (m ((c : Thread nD τ).loc main_arg2))) (colK (F := Ideal) (Host.rsqrt (degreeK (F := Ideal) (m ((c : Thread nD τ).loc main_arg2)))))) (colK (F := Ideal) (Host.rsqrt (degreeK (F := Ideal) (m ((c : Thread nD τ).loc main_arg1))))) (m ((c : Thread nD τ).loc main_arg5)) := by
  refine (W9_arr m ρ c 3).trans ((Blocks.final2 (V8 m ρ) c).trans ?_)
  show scaleMatmul (W8 m ρ c (Proc.devRef .tc main_v24)) (W8 m ρ c (Proc.devRef .tc main_v10)) (W8 m ρ c (Proc.devRef .tc main_arg5)) = _
  rw [v24_at8, v10_at8, v10_at5, arg5_at8]

/-- After the fourth region: the second layer's activations. -/
theorem v36_at11 : W11 m ρ c (Proc.devRef .tc main_v36) = scaleLeaky (aggK32 (F := Ideal) (scaleMatmul (scaleLeaky (aggK64 (F := Ideal) (scaleMatmul (m ((c : Thread nD τ).loc main_arg0)) (colK (F := Ideal) (Host.rsqrt (degreeK (F := Ideal) (m ((c : Thread nD τ).loc main_arg1))))) (m ((c : Thread nD τ).loc main_arg4))) (m ((c : Thread nD τ).loc main_arg1)) (m ((c : Thread nD τ).loc main_arg2))) (colK (F := Ideal) (Host.rsqrt (degreeK (F := Ideal) (m ((c : Thread nD τ).loc main_arg2)))))) (colK (F := Ideal) (Host.rsqrt (degreeK (F := Ideal) (m ((c : Thread nD τ).loc main_arg1))))) (m ((c : Thread nD τ).loc main_arg5))) (m ((c : Thread nD τ).loc main_arg1)) (m ((c : Thread nD τ).loc main_arg2))) (colK (F := Ideal) (Host.rsqrt (degreeK (F := Ideal) (m ((c : Thread nD τ).loc main_arg2))))) := by
  refine (W11_arr m ρ c 2).trans ((Blocks.final3 (V10 m ρ) c).trans ?_)
  show scaleLeaky (W10 m ρ c (Proc.devRef .tc main_v35)) (W10 m ρ c (Proc.devRef .tc main_v12)) = _
  rw [v35_at10, v12_at10, v12_at5, v25_at9, arg1_at9, arg2_at9]

/-- After the fifth region: the result. -/
theorem v46_at15 : W15 m ρ c (Proc.devRef .tc main_v46) = meanMatmul (sumsK (F := Ideal) (scaleLeaky (aggK32 (F := Ideal) (scaleMatmul (scaleLeaky (aggK64 (F := Ideal) (scaleMatmul (m ((c : Thread nD τ).loc main_arg0)) (colK (F := Ideal) (Host.rsqrt (degreeK (F := Ideal) (m ((c : Thread nD τ).loc main_arg1))))) (m ((c : Thread nD τ).loc main_arg4))) (m ((c : Thread nD τ).loc main_arg1)) (m ((c : Thread nD τ).loc main_arg2))) (colK (F := Ideal) (Host.rsqrt (degreeK (F := Ideal) (m ((c : Thread nD τ).loc main_arg2)))))) (colK (F := Ideal) (Host.rsqrt (degreeK (F := Ideal) (m ((c : Thread nD τ).loc main_arg1))))) (m ((c : Thread nD τ).loc main_arg5))) (m ((c : Thread nD τ).loc main_arg1)) (m ((c : Thread nD τ).loc main_arg2))) (colK (F := Ideal) (Host.rsqrt (degreeK (F := Ideal) (m ((c : Thread nD τ).loc main_arg2)))))) (m ((c : Thread nD τ).loc main_arg3))) (colK64 (F := Ideal) (countsK (F := Ideal) (m ((c : Thread nD τ).loc main_arg3)))) (m ((c : Thread nD τ).loc main_arg6)) := by
  refine (W15_arr m ρ c 3).trans ((Blocks.final4 (V14 m ρ) c).trans ?_)
  show meanMatmul (W14 m ρ c (Proc.devRef .tc main_v39)) (W14 m ρ c (Proc.devRef .tc main_v45)) (W14 m ρ c (Proc.devRef .tc main_arg6)) = _
  rw [v39_at14, v45_at14, v36_at11, arg3_at11, arg6_at14]

end Cert.KernelIdeal.Chain

end
-- ==== Proof.RefTerms.lean ====
/-
  The reference's result as named functions of its arguments, stage by stage: the degree of a node (the number of edges
  listing it, not less than 1); a per-node value laid against the columns of a row; the edge sources as row numbers, a
  negative one counted from the end; neighbour aggregation (row src(e) added into row dst(e) over all edges e); a layer's
  projection (rows scaled by the inverse square root of the out-degree, times the weights); its activation (the
  aggregated rows scaled by the inverse square root of the in-degree, through the leaky rectifier); and the pooling
  (per-graph sums of the rows divided by the per-graph node counts, not less than 1, times the last weights). The result
  is the pooling of the second layer over the first.
-/
import proofs.«108006_j68547678044330_1_alg».proof.Proof.Gen.ReferenceIdeal

noncomputable section

namespace Cert.ReferenceIdeal.HandRun

open Cert.ReferenceIdeal Cert.ReferenceIdeal.Gen Idealize.ShloMosaic

variable {F : FTy → Type} [FloatOps F]

/-! ## The reference's value as named terms

Each definition is one line of the reference's source: the degree of a node (a scatter-add of ones,
clipped below at one), the wrapped source index as a column, the neighbourhood sum at 64 and at 32
columns (a gather of the source rows scattered-added at the destination rows), a vector spread over
the columns of a matrix, the two projections (the input scaled by the inverse square root of the
degree, times the weights), the leaky rectifier, and the mean pooling over the graphs followed by
the classifier's weights. -/

/-- The contents of a buffer of shape `S` and element type `e`. -/
local notation:max "𝒞[" S ", " e "]" => BufTy.Contents (Elt F) (BufTy.mk S e)

/-- How many edges end at each node, at least one. -/
def degree (idx : 𝒞[S1600000, .i32]) : 𝒞[S100000, .f32] :=
  maximumf (broadcastInDim S100000 ![] bcast_S_S100000 (constant S_ .f32 0x3F800000#32))
    (Host.scatterAdd scatter_S100000_S1600000x1_S1600000_n_0_0_1
      (broadcastInDim S100000 ![] bcast_S_S100000 (constant S_ .f32 0x00000000#32))
      (broadcastInDim S1600000x1 ![0] bcast_S1600000_S1600000x1_0 idx)
      (broadcastInDim S1600000 ![] bcast_S_S1600000 (constant S_ .f32 0x3F800000#32)))

/-- The indices with the negative ones moved up by the number of nodes, as a column. -/
def wrapCol (idx : 𝒞[S1600000, .i32]) : 𝒞[S1600000x1, .i32] :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- The rows of `h` at the sources, summed at the destinations (64 columns). -/
def agg64 (h : 𝒞[S100000x64, .f32]) (src dst : 𝒞[S1600000, .i32]) : 𝒞[S100000x64, .f32] :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 h (wrapCol src))

/-- The rows of `h` at the sources, summed at the destinations (32 columns). -/
def agg32 (h : 𝒞[S100000x32, .f32]) (src dst : 𝒞[S1600000, .i32]) : 𝒞[S100000x32, .f32] :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 dst)
    (Host.gather gather_S100000x32_S1600000x1_S1600000x32_1_0_n_n_0_1_132 h (wrapCol src))

/-- A value per node, repeated along 128 columns. -/
def col128 (d : 𝒞[S100000, .f32]) : 𝒞[S100000x128, .f32] :=
  broadcastInDim S100000x128 ![0, 1] bcast_S100000x1_S100000x128_0_1 (broadcastInDim S100000x1 ![0] bcast_S100000_S100000x1_0 d)

/-- A value per node, repeated along 64 columns. -/
def col64 (d : 𝒞[S100000, .f32]) : 𝒞[S100000x64, .f32] :=
  broadcastInDim S100000x64 ![0, 1] bcast_S100000x1_S100000x64_0_1 (broadcastInDim S100000x1 ![0] bcast_S100000_S100000x1_0 d)

/-- A value per node, repeated along 32 columns. -/
def col32 (d : 𝒞[S100000, .f32]) : 𝒞[S100000x32, .f32] :=
  broadcastInDim S100000x32 ![0, 1] bcast_S100000x1_S100000x32_0_1 (broadcastInDim S100000x1 ![0] bcast_S100000_S100000x1_0 d)

/-- The first layer's projection: the rows scaled by the inverse square root of the degree, times the weights. -/
def proj1 (x : 𝒞[S100000x128, .f32]) (deg : 𝒞[S100000, .f32]) (w : 𝒞[S128x64, .f32]) : 𝒞[S100000x64, .f32] :=
  Host.dotGeneral dot_S100000x128_S128x64_S100000x64_1_0_0_1_n_n none (mulf x (col128 (Host.rsqrt deg))) w

/-- The second layer's projection. -/
def proj2 (x : 𝒞[S100000x64, .f32]) (deg : 𝒞[S100000, .f32]) (w : 𝒞[S64x32, .f32]) : 𝒞[S100000x32, .f32] :=
  Host.dotGeneral dot_S100000x64_S64x32_S100000x32_1_0_0_1_n_n none (mulf x (col64 (Host.rsqrt deg))) w

/-- The leaky rectifier of slope 0.01 (64 columns): the value where it is at least zero, the slope times it elsewhere. -/
def lrelu64 (y : 𝒞[S100000x64, .f32]) : 𝒞[S100000x64, .f32] :=
  select (cmpf .oge y (broadcastInDim S100000x64 ![] bcast_S_S100000x64 (constant S_ .f32 0x00000000#32))) y
    (mulf (broadcastInDim S100000x64 ![] bcast_S_S100000x64 (constant S_ .f32 0x3C23D70A#32)) y)

/-- The leaky rectifier of slope 0.01 (32 columns). -/
def lrelu32 (y : 𝒞[S100000x32, .f32]) : 𝒞[S100000x32, .f32] :=
  select (cmpf .oge y (broadcastInDim S100000x32 ![] bcast_S_S100000x32 (constant S_ .f32 0x00000000#32))) y
    (mulf (broadcastInDim S100000x32 ![] bcast_S_S100000x32 (constant S_ .f32 0x3C23D70A#32)) y)

/-- A layer's output: the neighbourhood sum scaled by the inverse square root of the degree, rectified (64 columns). -/
def act64 (mm : 𝒞[S100000x64, .f32]) (deg : 𝒞[S100000, .f32]) : 𝒞[S100000x64, .f32] :=
  lrelu64 (mulf mm (col64 (Host.rsqrt deg)))

/-- A layer's output (32 columns). -/
def act32 (mm : 𝒞[S100000x32, .f32]) (deg : 𝒞[S100000, .f32]) : 𝒞[S100000x32, .f32] :=
  lrelu32 (mulf mm (col32 (Host.rsqrt deg)))

/-- The mean of the nodes' rows over each graph (the sum divided by the graph's size, at least one), times the classifier's weights. -/
def pool (h : 𝒞[S100000x32, .f32]) (gid : 𝒞[S100000, .i32]) (wc : 𝒞[S32x16, .f32]) : 𝒞[S64x16, .f32] :=
  Host.dotGeneral dot_S64x32_S32x16_S64x16_1_0_0_1_n_n none
    (Host.divf
      (Host.scatterAdd scatter_S64x32_S100000x1_S100000x32_1_0_0_1
        (broadcastInDim S64x32 ![] bcast_S_S64x32 (constant S_ .f32 0x00000000#32))
        (broadcastInDim S100000x1 ![0] bcast_S100000_S100000x1_0 gid) h)
      (broadcastInDim S64x32 ![0, 1] bcast_S64x1_S64x32_0_1
        (broadcastInDim S64x1 ![0] bcast_S64_S64x1_0
          (maximumf (broadcastInDim S64 ![] bcast_S_S64 (constant S_ .f32 0x3F800000#32))
            (Host.scatterAdd scatter_S64_S100000x1_S100000_n_0_0_1
              (broadcastInDim S64 ![] bcast_S_S64 (constant S_ .f32 0x00000000#32))
              (broadcastInDim S100000x1 ![0] bcast_S100000_S100000x1_0 gid)
              (broadcastInDim S100000 ![] bcast_S_S100000 (constant S_ .f32 0x3F800000#32)))))))
    wc

/-- The reference's result as a term of its seven arguments. -/
def refOut (a0 : 𝒞[S100000x128, .f32]) (a1 a2 : 𝒞[S1600000, .i32]) (a3 : 𝒞[S100000, .i32])
    (a4 : 𝒞[S128x64, .f32]) (a5 : 𝒞[S64x32, .f32]) (a6 : 𝒞[S32x16, .f32]) : 𝒞[S64x16, .f32] :=
  pool (act32 (agg32 (proj2 (act64 (agg64 (proj1 a0 (degree a1) a4) a1 a2) (degree a2)) (degree a1) a5) a1 a2) (degree a2)) a3 a6

end Cert.ReferenceIdeal.HandRun

end
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.RefLayers.lean ====
/-
  The host's spelling of the three stages, as whole arrays, IS the specification's. A per-node factor f : [a] is laid
  against the rows by two broadcasts ([a] to the column [a, 1], the column to [a, k]); read at (p, j) that is f (p), the
  same number the column cast of f holds at (p, 0). So the host's product of the scaled rows with a weight matrix is
  `scaleMatmul` of the rows, the column cast of f and the weights; its rectifier (keep y where y ≥ 0, else slope · y) of
  the scaled rows is `scaleLeaky` (the two tests differ only at y = 0, where both branches are 0, and the slope may be
  written on either side of the product); and its product of the rows divided by their counts is `meanMatmul`.
-/
import proofs.«108006_j68547678044330_1_alg».proof.Proof.Spec
import proofs.«108006_j68547678044330_1_alg».proof.Proof.LibMatmul
import proofs.«108006_j68547678044330_1_alg».proof.Proof.LibHostColumns
import proofs.«108006_j68547678044330_1_alg».proof.Proof.LibColumns
import Idealize.ShloMosaic.Lib.ValueIdx
import Idealize.ShloMosaic.Lib.Pipeline.Value
import Idealize.ShloMosaic.PureOps.Ideal.Laws

noncomputable section

open scoped BigOperators

namespace Cert.GraphConv

open Idealize.ShloMosaic Idealize.ShloMosaic.ValueIdx

/-- A scalar laid out over a whole array reads the scalar at every index. -/
theorem broadcastInDim_scalar_apply {t : Shape} {α : Type} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 (fun ax => ax.elim0)

/-- The host's rectifier — keep y where y ≥ 0, else slope · y — is `leaky`: at y = 0 both give 0. -/
theorem select_ge_eq_leaky (y : EReal) :
    Scalar.select (FloatOps.cmpf (F := Ideal) (φ := .f32) .oge y (FloatOps.ofBits .f32 0x00000000#32)) y
      (FloatOps.mulf (F := Ideal) (φ := .f32) (FloatOps.ofBits .f32 0x3C23D70A#32) y) = leaky y := by
  unfold leaky
  simp only [Scalar.select, Ideal.cmpf_def, Ideal.cmp, Ideal.ofBits_def, Ideal.ofBits_zero_f32, Ideal.mulf_def]
  by_cases h : (0 : EReal) < y
  · simp [h, h.le]
  · by_cases h0 : y = 0
    · subst h0; simp
    · have hlt : y < 0 := lt_of_le_of_ne (not_lt.mp h) h0
      simp [h, not_le.mpr hlt, mul_comm]

section Stages

variable {a k b : ℕ}

/-- The host's product of the scaled rows is `scaleMatmul`. -/
theorem dotGeneral_scaled (d : DotDims ⟨2, ![a, k]⟩ ⟨2, ![k, b]⟩ ⟨2, ![a, b]⟩)
    (hl : d.lhsContracting = [1]) (hr : d.rhsContracting = [0]) (hln : d.lhsNonContracting = [0])
    (hrn : d.rhsNonContracting = [1]) (hlb : d.lhsBatch = []) (hrb : d.rhsBatch = [])
    (X : FVec Ideal ⟨2, ![a, k]⟩ .f32) (f : FVec Ideal ⟨1, ![a]⟩ .f32) (W : FVec Ideal ⟨2, ![k, b]⟩ .f32)
    (h1 : (⟨1, ![a]⟩ : Shape).BroadcastsInDim ⟨2, ![a, 1]⟩ (![0] : Fin 1 → Fin 2))
    (h2 : (⟨2, ![a, 1]⟩ : Shape).BroadcastsInDim ⟨2, ![a, k]⟩ (![0, 1] : Fin 2 → Fin 2))
    (hc : (⟨1, ![a]⟩ : Shape).ShapeCasts ⟨2, ![a, 1]⟩) :
    Host.dotGeneral d none (mulf X (broadcastInDim ⟨2, ![a, k]⟩ (![0, 1] : Fin 2 → Fin 2) h2
        (broadcastInDim ⟨2, ![a, 1]⟩ (![0] : Fin 1 → Fin 2) h1 f))) W
      = scaleMatmul X (shapeCast ⟨2, ![a, 1]⟩ f hc) W := by
  funext i
  obtain ⟨p, q, rfl⟩ : ∃ (p : Fin a) (q : Fin b), i = ix2 p q := ⟨i 0, i 1, eq_ix2 i⟩
  rw [scaleMatmul_ix2]
  refine (dotGeneral_ix2 d hl hr hln hrn hlb hrb none .single _ _ p q).trans ?_
  refine Finset.sum_congr rfl fun j _ => ?_
  rw [mulf_apply, broadcastInDim_column_apply, shapeCast_a_a1_apply]

/-- The host's product of the rows divided by their counts is `meanMatmul`. -/
theorem dotGeneral_mean (d : DotDims ⟨2, ![a, k]⟩ ⟨2, ![k, b]⟩ ⟨2, ![a, b]⟩)
    (hl : d.lhsContracting = [1]) (hr : d.rhsContracting = [0]) (hln : d.lhsNonContracting = [0])
    (hrn : d.rhsNonContracting = [1]) (hlb : d.lhsBatch = []) (hrb : d.rhsBatch = [])
    (S : FVec Ideal ⟨2, ![a, k]⟩ .f32) (cn : FVec Ideal ⟨1, ![a]⟩ .f32) (W : FVec Ideal ⟨2, ![k, b]⟩ .f32)
    (h1 : (⟨1, ![a]⟩ : Shape).BroadcastsInDim ⟨2, ![a, 1]⟩ (![0] : Fin 1 → Fin 2))
    (h2 : (⟨2, ![a, 1]⟩ : Shape).BroadcastsInDim ⟨2, ![a, k]⟩ (![0, 1] : Fin 2 → Fin 2))
    (hc : (⟨1, ![a]⟩ : Shape).ShapeCasts ⟨2, ![a, 1]⟩) :
    Host.dotGeneral d none (Host.divf S (broadcastInDim ⟨2, ![a, k]⟩ (![0, 1] : Fin 2 → Fin 2) h2
        (broadcastInDim ⟨2, ![a, 1]⟩ (![0] : Fin 1 → Fin 2) h1 cn))) W
      = meanMatmul S (shapeCast ⟨2, ![a, 1]⟩ cn hc) W := by
  funext i
  obtain ⟨p, q, rfl⟩ : ∃ (p : Fin a) (q : Fin b), i = ix2 p q := ⟨i 0, i 1, eq_ix2 i⟩
  rw [meanMatmul_ix2]
  refine (dotGeneral_ix2 d hl hr hln hrn hlb hrb none .single _ _ p q).trans ?_
  refine Finset.sum_congr rfl fun j _ => ?_
  show Ideal.div (S (ix2 p j)) (broadcastInDim ⟨2, ![a, k]⟩ (![0, 1] : Fin 2 → Fin 2) h2
        (broadcastInDim ⟨2, ![a, 1]⟩ (![0] : Fin 1 → Fin 2) h1 cn) (ix2 p j)) * W (ix2 j q) = _
  rw [broadcastInDim_column_apply, shapeCast_a_a1_apply]

/-- The host's rectifier of the scaled rows is `scaleLeaky`. -/
theorem lrelu_scaled (M : FVec Ideal ⟨2, ![a, b]⟩ .f32) (f : FVec Ideal ⟨1, ![a]⟩ .f32)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (hz : (⟨0, ![]⟩ : Shape).BroadcastsInDim ⟨2, ![a, b]⟩ (![] : Fin 0 → Fin 2))
    (hc : (⟨1, ![a]⟩ : Shape).ShapeCasts ⟨2, ![a, 1]⟩) :
    select (cmpf .oge
          (mulf M (broadcastInDim ⟨2, ![a, b]⟩ (![0, 1] : Fin 2 → Fin 2) h2 (broadcastInDim ⟨2, ![a, 1]⟩ (![0] : Fin 1 → Fin 2) h1 f)))
          (broadcastInDim ⟨2, ![a, b]⟩ (![] : Fin 0 → Fin 2) hz (constant (F := Ideal) ⟨0, ![]⟩ .f32 0x00000000#32)))
        (mulf M (broadcastInDim ⟨2, ![a, b]⟩ (![0, 1] : Fin 2 → Fin 2) h2 (broadcastInDim ⟨2, ![a, 1]⟩ (![0] : Fin 1 → Fin 2) h1 f)))
        (mulf (broadcastInDim ⟨2, ![a, b]⟩ (![] : Fin 0 → Fin 2) hz (constant (F := Ideal) ⟨0, ![]⟩ .f32 0x3C23D70A#32))
          (mulf M (broadcastInDim ⟨2, ![a, b]⟩ (![0, 1] : Fin 2 → Fin 2) h2 (broadcastInDim ⟨2, ![a, 1]⟩ (![0] : Fin 1 → Fin 2) h1 f))))
      = scaleLeaky M (shapeCast ⟨2, ![a, 1]⟩ f hc) := by
  funext i
  obtain ⟨p, q, rfl⟩ : ∃ (p : Fin a) (q : Fin b), i = ix2 p q := ⟨i 0, i 1, eq_ix2 i⟩
  rw [scaleLeaky_ix2]
  simp only [select_apply, cmpf_apply, mulf_apply, broadcastInDim_scalar_apply, broadcastInDim_column_apply,
    shapeCast_a_a1_apply]
  exact select_ge_eq_leaky _

end Stages

end Cert.GraphConv

end
-- ==== Proof.Bridge.lean ====
/-
  The reference's stages are the specification's stages over the same host terms. The reference and the kernel program
  spell the host glue — the clipped degrees, the gather along the edge sources with the scatter-add into the edge
  destinations, the per-graph sums and counts — with the same operations and the same dimension records, so those terms
  are equal as written, whatever the float instance. What differs is where the per-node scaling, the rectifier and the
  division by the counts happen (on the host in the reference, inside the kernels in the program), and there, on the
  extended reals, the host's form is the specification's: its product of scaled rows is `scaleMatmul`, its rectifier of
  scaled rows is `scaleLeaky`, its product of the averaged rows is `meanMatmul`.
-/
import proofs.«108006_j68547678044330_1_alg».proof.Proof.KHost
import proofs.«108006_j68547678044330_1_alg».proof.Proof.RefTerms
import proofs.«108006_j68547678044330_1_alg».proof.Proof.RefLayers
import proofs.«108006_j68547678044330_1_alg».proof.Proof.Spec

noncomputable section

namespace Cert.Bridge

open Cert.GraphConv Cert.KernelIdeal.Chain Idealize.ShloMosaic

/-! ## The same terms in both programs, at any float instance -/

section Spelling

variable {F : FTy → Type} [FloatOps F]

theorem degree_eq (idx : (BufTy.Contents (Elt F) (BufTy.mk Cert.ReferenceIdeal.S1600000 .i32))) : Cert.ReferenceIdeal.HandRun.degree (F := F) idx = degreeK (F := F) idx := rfl

theorem agg64_eq (h : (BufTy.Contents (Elt F) (BufTy.mk Cert.ReferenceIdeal.S100000x64 .f32))) (src dst : (BufTy.Contents (Elt F) (BufTy.mk Cert.ReferenceIdeal.S1600000 .i32))) :
    Cert.ReferenceIdeal.HandRun.agg64 (F := F) h src dst = aggK64 (F := F) h src dst := rfl

theorem agg32_eq (h : (BufTy.Contents (Elt F) (BufTy.mk Cert.ReferenceIdeal.S100000x32 .f32))) (src dst : (BufTy.Contents (Elt F) (BufTy.mk Cert.ReferenceIdeal.S1600000 .i32))) :
    Cert.ReferenceIdeal.HandRun.agg32 (F := F) h src dst = aggK32 (F := F) h src dst := rfl

theorem proj1_spelt (x : (BufTy.Contents (Elt F) (BufTy.mk Cert.ReferenceIdeal.S100000x128 .f32))) (d : (BufTy.Contents (Elt F) (BufTy.mk Cert.ReferenceIdeal.S100000 .f32))) (w : (BufTy.Contents (Elt F) (BufTy.mk Cert.ReferenceIdeal.S128x64 .f32))) :
    Cert.ReferenceIdeal.HandRun.proj1 (F := F) x d w
      = Host.dotGeneral Cert.ReferenceIdeal.dot_S100000x128_S128x64_S100000x64_1_0_0_1_n_n none (mulf x (broadcastInDim Cert.ReferenceIdeal.S100000x128 ![0, 1] Cert.ReferenceIdeal.Gen.bcast_S100000x1_S100000x128_0_1 (broadcastInDim Cert.ReferenceIdeal.S100000x1 ![0] Cert.ReferenceIdeal.Gen.bcast_S100000_S100000x1_0 (Host.rsqrt d)))) w := rfl

theorem proj2_spelt (x : (BufTy.Contents (Elt F) (BufTy.mk Cert.ReferenceIdeal.S100000x64 .f32))) (d : (BufTy.Contents (Elt F) (BufTy.mk Cert.ReferenceIdeal.S100000 .f32))) (w : (BufTy.Contents (Elt F) (BufTy.mk Cert.ReferenceIdeal.S64x32 .f32))) :
    Cert.ReferenceIdeal.HandRun.proj2 (F := F) x d w
      = Host.dotGeneral Cert.ReferenceIdeal.dot_S100000x64_S64x32_S100000x32_1_0_0_1_n_n none (mulf x (broadcastInDim Cert.ReferenceIdeal.S100000x64 ![0, 1] Cert.ReferenceIdeal.Gen.bcast_S100000x1_S100000x64_0_1 (broadcastInDim Cert.ReferenceIdeal.S100000x1 ![0] Cert.ReferenceIdeal.Gen.bcast_S100000_S100000x1_0 (Host.rsqrt d)))) w := rfl

theorem act64_spelt (mm : (BufTy.Contents (Elt F) (BufTy.mk Cert.ReferenceIdeal.S100000x64 .f32))) (d : (BufTy.Contents (Elt F) (BufTy.mk Cert.ReferenceIdeal.S100000 .f32))) :
    Cert.ReferenceIdeal.HandRun.act64 (F := F) mm d = select (cmpf .oge (mulf mm (broadcastInDim Cert.ReferenceIdeal.S100000x64 ![0, 1] Cert.ReferenceIdeal.Gen.bcast_S100000x1_S100000x64_0_1 (broadcastInDim Cert.ReferenceIdeal.S100000x1 ![0] Cert.ReferenceIdeal.Gen.bcast_S100000_S100000x1_0 (Host.rsqrt d)))) (broadcastInDim Cert.ReferenceIdeal.S100000x64 ![] Cert.ReferenceIdeal.Gen.bcast_S_S100000x64 (constant (F := F) Cert.ReferenceIdeal.S_ .f32 0x00000000#32))) (mulf mm (broadcastInDim Cert.ReferenceIdeal.S100000x64 ![0, 1] Cert.ReferenceIdeal.Gen.bcast_S100000x1_S100000x64_0_1 (broadcastInDim Cert.ReferenceIdeal.S100000x1 ![0] Cert.ReferenceIdeal.Gen.bcast_S100000_S100000x1_0 (Host.rsqrt d)))) (mulf (broadcastInDim Cert.ReferenceIdeal.S100000x64 ![] Cert.ReferenceIdeal.Gen.bcast_S_S100000x64 (constant (F := F) Cert.ReferenceIdeal.S_ .f32 0x3C23D70A#32)) (mulf mm (broadcastInDim Cert.ReferenceIdeal.S100000x64 ![0, 1] Cert.ReferenceIdeal.Gen.bcast_S100000x1_S100000x64_0_1 (broadcastInDim Cert.ReferenceIdeal.S100000x1 ![0] Cert.ReferenceIdeal.Gen.bcast_S100000_S100000x1_0 (Host.rsqrt d))))) := rfl

theorem act32_spelt (mm : (BufTy.Contents (Elt F) (BufTy.mk Cert.ReferenceIdeal.S100000x32 .f32))) (d : (BufTy.Contents (Elt F) (BufTy.mk Cert.ReferenceIdeal.S100000 .f32))) :
    Cert.ReferenceIdeal.HandRun.act32 (F := F) mm d = select (cmpf .oge (mulf mm (broadcastInDim Cert.ReferenceIdeal.S100000x32 ![0, 1] Cert.ReferenceIdeal.Gen.bcast_S100000x1_S100000x32_0_1 (broadcastInDim Cert.ReferenceIdeal.S100000x1 ![0] Cert.ReferenceIdeal.Gen.bcast_S100000_S100000x1_0 (Host.rsqrt d)))) (broadcastInDim Cert.ReferenceIdeal.S100000x32 ![] Cert.ReferenceIdeal.Gen.bcast_S_S100000x32 (constant (F := F) Cert.ReferenceIdeal.S_ .f32 0x00000000#32))) (mulf mm (broadcastInDim Cert.ReferenceIdeal.S100000x32 ![0, 1] Cert.ReferenceIdeal.Gen.bcast_S100000x1_S100000x32_0_1 (broadcastInDim Cert.ReferenceIdeal.S100000x1 ![0] Cert.ReferenceIdeal.Gen.bcast_S100000_S100000x1_0 (Host.rsqrt d)))) (mulf (broadcastInDim Cert.ReferenceIdeal.S100000x32 ![] Cert.ReferenceIdeal.Gen.bcast_S_S100000x32 (constant (F := F) Cert.ReferenceIdeal.S_ .f32 0x3C23D70A#32)) (mulf mm (broadcastInDim Cert.ReferenceIdeal.S100000x32 ![0, 1] Cert.ReferenceIdeal.Gen.bcast_S100000x1_S100000x32_0_1 (broadcastInDim Cert.ReferenceIdeal.S100000x1 ![0] Cert.ReferenceIdeal.Gen.bcast_S100000_S100000x1_0 (Host.rsqrt d))))) := rfl

theorem pool_spelt (h : (BufTy.Contents (Elt F) (BufTy.mk Cert.ReferenceIdeal.S100000x32 .f32))) (gid : (BufTy.Contents (Elt F) (BufTy.mk Cert.ReferenceIdeal.S100000 .i32))) (wc : (BufTy.Contents (Elt F) (BufTy.mk Cert.ReferenceIdeal.S32x16 .f32))) :
    Cert.ReferenceIdeal.HandRun.pool (F := F) h gid wc
      = Host.dotGeneral Cert.ReferenceIdeal.dot_S64x32_S32x16_S64x16_1_0_0_1_n_n none
          (Host.divf (sumsK (F := F) h gid) (broadcastInDim Cert.ReferenceIdeal.S64x32 ![0, 1] Cert.ReferenceIdeal.Gen.bcast_S64x1_S64x32_0_1 (broadcastInDim Cert.ReferenceIdeal.S64x1 ![0] Cert.ReferenceIdeal.Gen.bcast_S64_S64x1_0 (countsK (F := F) gid)))) wc := rfl

end Spelling

/-! ## On the extended reals the host's stages are the specification's -/

/-- The reference's first projection is the scaled product. -/
theorem proj1_eq (x : (BufTy.Contents (Elt Ideal) (BufTy.mk Cert.ReferenceIdeal.S100000x128 .f32))) (d : (BufTy.Contents (Elt Ideal) (BufTy.mk Cert.ReferenceIdeal.S100000 .f32))) (w : (BufTy.Contents (Elt Ideal) (BufTy.mk Cert.ReferenceIdeal.S128x64 .f32))) :
    Cert.ReferenceIdeal.HandRun.proj1 (F := Ideal) x d w = scaleMatmul x (colK (F := Ideal) (Host.rsqrt d)) w :=
  (proj1_spelt x d w).trans
    (dotGeneral_scaled (a := 100000) (k := 128) (b := 64) Cert.ReferenceIdeal.dot_S100000x128_S128x64_S100000x64_1_0_0_1_n_n rfl rfl rfl rfl rfl rfl
      x (Host.rsqrt d) w _ _ Cert.KernelIdeal.Gen.shapeCasts_S100000_S100000x1)

/-- The reference's second projection is the scaled product. -/
theorem proj2_eq (x : (BufTy.Contents (Elt Ideal) (BufTy.mk Cert.ReferenceIdeal.S100000x64 .f32))) (d : (BufTy.Contents (Elt Ideal) (BufTy.mk Cert.ReferenceIdeal.S100000 .f32))) (w : (BufTy.Contents (Elt Ideal) (BufTy.mk Cert.ReferenceIdeal.S64x32 .f32))) :
    Cert.ReferenceIdeal.HandRun.proj2 (F := Ideal) x d w = scaleMatmul x (colK (F := Ideal) (Host.rsqrt d)) w :=
  (proj2_spelt x d w).trans
    (dotGeneral_scaled (a := 100000) (k := 64) (b := 32) Cert.ReferenceIdeal.dot_S100000x64_S64x32_S100000x32_1_0_0_1_n_n rfl rfl rfl rfl rfl rfl
      x (Host.rsqrt d) w _ _ Cert.KernelIdeal.Gen.shapeCasts_S100000_S100000x1)

/-- The reference's first activation is the scaled rectifier. -/
theorem act64_eq (mm : (BufTy.Contents (Elt Ideal) (BufTy.mk Cert.ReferenceIdeal.S100000x64 .f32))) (d : (BufTy.Contents (Elt Ideal) (BufTy.mk Cert.ReferenceIdeal.S100000 .f32))) :
    Cert.ReferenceIdeal.HandRun.act64 (F := Ideal) mm d = scaleLeaky mm (colK (F := Ideal) (Host.rsqrt d)) :=
  (act64_spelt mm d).trans
    (lrelu_scaled (a := 100000) (b := 64) mm (Host.rsqrt d) _ _ _ Cert.KernelIdeal.Gen.shapeCasts_S100000_S100000x1)

/-- The reference's second activation is the scaled rectifier. -/
theorem act32_eq (mm : (BufTy.Contents (Elt Ideal) (BufTy.mk Cert.ReferenceIdeal.S100000x32 .f32))) (d : (BufTy.Contents (Elt Ideal) (BufTy.mk Cert.ReferenceIdeal.S100000 .f32))) :
    Cert.ReferenceIdeal.HandRun.act32 (F := Ideal) mm d = scaleLeaky mm (colK (F := Ideal) (Host.rsqrt d)) :=
  (act32_spelt mm d).trans
    (lrelu_scaled (a := 100000) (b := 32) mm (Host.rsqrt d) _ _ _ Cert.KernelIdeal.Gen.shapeCasts_S100000_S100000x1)

/-- The reference's pooling and final product is the averaged product over the per-graph sums and counts. -/
theorem pool_eq (h : (BufTy.Contents (Elt Ideal) (BufTy.mk Cert.ReferenceIdeal.S100000x32 .f32))) (gid : (BufTy.Contents (Elt Ideal) (BufTy.mk Cert.ReferenceIdeal.S100000 .i32))) (wc : (BufTy.Contents (Elt Ideal) (BufTy.mk Cert.ReferenceIdeal.S32x16 .f32))) :
    Cert.ReferenceIdeal.HandRun.pool (F := Ideal) h gid wc = meanMatmul (sumsK (F := Ideal) h gid) (colK64 (F := Ideal) (countsK (F := Ideal) gid)) wc :=
  (pool_spelt h gid wc).trans
    (dotGeneral_mean (a := 64) (k := 32) (b := 16) Cert.ReferenceIdeal.dot_S64x32_S32x16_S64x16_1_0_0_1_n_n rfl rfl rfl rfl rfl rfl
      (sumsK (F := Ideal) h gid) (countsK (F := Ideal) gid) wc _ _ Cert.KernelIdeal.Gen.shapeCasts_S64_S64x1)

/-- The reference's result is the composition of the specification's stages over the host terms. -/
theorem refOut_eq (a0 : (BufTy.Contents (Elt Ideal) (BufTy.mk Cert.ReferenceIdeal.S100000x128 .f32))) (a1 a2 : (BufTy.Contents (Elt Ideal) (BufTy.mk Cert.ReferenceIdeal.S1600000 .i32))) (a3 : (BufTy.Contents (Elt Ideal) (BufTy.mk Cert.ReferenceIdeal.S100000 .i32)))
    (a4 : (BufTy.Contents (Elt Ideal) (BufTy.mk Cert.ReferenceIdeal.S128x64 .f32))) (a5 : (BufTy.Contents (Elt Ideal) (BufTy.mk Cert.ReferenceIdeal.S64x32 .f32))) (a6 : (BufTy.Contents (Elt Ideal) (BufTy.mk Cert.ReferenceIdeal.S32x16 .f32))) :
    Cert.ReferenceIdeal.HandRun.refOut (F := Ideal) a0 a1 a2 a3 a4 a5 a6 = meanMatmul (sumsK (F := Ideal) (scaleLeaky (aggK32 (F := Ideal) (scaleMatmul (scaleLeaky (aggK64 (F := Ideal) (scaleMatmul a0 (colK (F := Ideal) (Host.rsqrt (degreeK (F := Ideal) a1))) a4) a1 a2) (colK (F := Ideal) (Host.rsqrt (degreeK (F := Ideal) a2)))) (colK (F := Ideal) (Host.rsqrt (degreeK (F := Ideal) a1))) a5) a1 a2) (colK (F := Ideal) (Host.rsqrt (degreeK (F := Ideal) a2)))) a3) (colK64 (F := Ideal) (countsK (F := Ideal) a3)) a6 := by
  unfold Cert.ReferenceIdeal.HandRun.refOut
  rw [pool_eq, act32_eq, agg32_eq, proj2_eq, act64_eq, agg64_eq, proj1_eq, degree_eq, degree_eq]

end Cert.Bridge

end
-- ==== Proof.RefRun.lean ====
/-
  The reference program's run. Its main function is a straight line of 114 host operations once the calls of its small
  outlined functions (the clip, the rectifier and the select inside it) are read at their call sites over the buffers
  each call names. Every weakly fair execution performs them in order and terminates, each buffer ending at what the
  operations compute for it from the launch contents; for the result buffer that is the named composition of stages,
  and no operation writes an argument.
-/
import proofs.«108006_j68547678044330_1_alg».proof.Proof.RefTerms
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The reference's operations, in order

The seven calls are written out at their call sites over each call's own buffers: a clip is the
bound's conversion, its broadcast and the maximum; a leaky rectifier is the zero, its broadcast, the
comparison, the slope's conversion, its broadcast, the product, and the select that the inner call is. -/

/-- @main's 114 operations, in order, the calls unfolded. -/
abbrev ops : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg1 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    TRef.unary (.of main_cst_1) main_call0.v0 id,
    TRef.unary main_call0.v0 main_call0.v1 (broadcastInDim S100000 ![] bcast_S_S100000),
    TRef.binary main_call0.v1 (.of main_v3) main_call0.v2 maximumf,
    nullary main_cst_2 (constant S_ .f32 0x00000000#32),
    unary main_cst_2 main_v5 (broadcastInDim S100000 ![] bcast_S_S100000 : (⟨S_, .f32⟩ : BufTy).Contents (Elt F) → (⟨S100000, .f32⟩ : BufTy).Contents (Elt F)),
    unary main_arg2 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v0 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    TRef.unary (.of main_cst_3) main_call1.v0 id,
    TRef.unary main_call1.v0 main_call1.v1 (broadcastInDim S100000 ![] bcast_S_S100000),
    TRef.binary main_call1.v1 (.of main_v7) main_call1.v2 maximumf,
    unary main_v4 main_v9 (Host.rsqrt : (⟨S100000, .f32⟩ : BufTy).Contents (Elt F) → (⟨S100000, .f32⟩ : BufTy).Contents (Elt F)),
    unary main_v9 main_v10 (broadcastInDim S100000x1 ![0] bcast_S100000_S100000x1_0 : (⟨S100000, .f32⟩ : BufTy).Contents (Elt F) → (⟨S100000x1, .f32⟩ : BufTy).Contents (Elt F)),
    unary main_v10 main_v11 (broadcastInDim S100000x128 ![0, 1] bcast_S100000x1_S100000x128_0_1 : (⟨S100000x1, .f32⟩ : BufTy).Contents (Elt F) → (⟨S100000x128, .f32⟩ : BufTy).Contents (Elt F)),
    binary main_arg0 main_v11 main_v12 (mulf : (⟨S100000x128, .f32⟩ : BufTy).Contents (Elt F) → (⟨S100000x128, .f32⟩ : BufTy).Contents (Elt F) → (⟨S100000x128, .f32⟩ : BufTy).Contents (Elt F)),
    binary main_v12 main_arg4 main_v13 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c (constantI S_ 32 0#32),
    unary main_c main_v14 (broadcastInDim S1600000 ![] bcast_S_S1600000 : (⟨S_, .i32⟩ : BufTy).Contents (Elt F) → (⟨S1600000, .i32⟩ : BufTy).Contents (Elt F)),
    binary main_arg1 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v16 (broadcastInDim S1600000 ![] bcast_S_S1600000 : (⟨S_, .i32⟩ : BufTy).Contents (Elt F) → (⟨S1600000, .i32⟩ : BufTy).Contents (Elt F)),
    binary main_arg1 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_arg1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v13 main_v19 main_v20 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_5 (constant S_ .f32 0x00000000#32),
    unary main_cst_5 main_v21 (broadcastInDim S100000x64 ![] bcast_S_S100000x64 : (⟨S_, .f32⟩ : BufTy).Contents (Elt F) → (⟨S100000x64, .f32⟩ : BufTy).Contents (Elt F)),
    unary main_arg2 main_v22 (broadcastInDim S1600000x1 ![0] bcast_S1600000_S1600000x1_0 : (⟨S1600000, .i32⟩ : BufTy).Contents (Elt F) → (⟨S1600000x1, .i32⟩ : BufTy).Contents (Elt F)),
    ternary main_v21 main_v22 main_v20 main_v23 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v8 main_v24 (Host.rsqrt : (⟨S100000, .f32⟩ : BufTy).Contents (Elt F) → (⟨S100000, .f32⟩ : BufTy).Contents (Elt F)),
    unary main_v24 main_v25 (broadcastInDim S100000x1 ![0] bcast_S100000_S100000x1_0 : (⟨S100000, .f32⟩ : BufTy).Contents (Elt F) → (⟨S100000x1, .f32⟩ : BufTy).Contents (Elt F)),
    unary main_v25 main_v26 (broadcastInDim S100000x64 ![0, 1] bcast_S100000x1_S100000x64_0_1 : (⟨S100000x1, .f32⟩ : BufTy).Contents (Elt F) → (⟨S100000x64, .f32⟩ : BufTy).Contents (Elt F)),
    binary main_v23 main_v26 main_v27 (mulf : (⟨S100000x64, .f32⟩ : BufTy).Contents (Elt F) → (⟨S100000x64, .f32⟩ : BufTy).Contents (Elt F) → (⟨S100000x64, .f32⟩ : BufTy).Contents (Elt F)),
    nullary main_cst_6 (constant S_ .f32 0x3C23D70A#32),
    TRef.nullary main_call2.cst (constant S_ .f32 0x00000000#32),
    TRef.unary main_call2.cst main_call2.v0 (broadcastInDim S100000x64 ![] bcast_S_S100000x64),
    TRef.binary (.of main_v27) main_call2.v0 main_call2.v1 (cmpf .oge),
    TRef.unary (.of main_cst_6) main_call2.v2 id,
    TRef.unary main_call2.v2 main_call2.v3 (broadcastInDim S100000x64 ![] bcast_S_S100000x64),
    TRef.binary main_call2.v3 (.of main_v27) main_call2.v4 mulf,
    TRef.ternary main_call2.v1 (.of main_v27) main_call2.v4 main_call2.call0.v0 select,
    nullary main_cst_7 (constant S_ .f32 0x3F800000#32),
    unary main_cst_7 main_v29 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v30 (broadcastInDim S100000 ![] bcast_S_S100000 : (⟨S_, .f32⟩ : BufTy).Contents (Elt F) → (⟨S100000, .f32⟩ : BufTy).Contents (Elt F)),
    unary main_arg1 main_v31 (broadcastInDim S1600000x1 ![0] bcast_S1600000_S1600000x1_0 : (⟨S1600000, .i32⟩ : BufTy).Contents (Elt F) → (⟨S1600000x1, .i32⟩ : BufTy).Contents (Elt F)),
    ternary main_v30 main_v31 main_v29 main_v32 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    TRef.unary (.of main_cst_9) main_call3.v0 id,
    TRef.unary main_call3.v0 main_call3.v1 (broadcastInDim S100000 ![] bcast_S_S100000),
    TRef.binary main_call3.v1 (.of main_v32) main_call3.v2 maximumf,
    nullary main_cst_10 (constant S_ .f32 0x00000000#32),
    unary main_cst_10 main_v34 (broadcastInDim S100000 ![] bcast_S_S100000 : (⟨S_, .f32⟩ : BufTy).Contents (Elt F) → (⟨S100000, .f32⟩ : BufTy).Contents (Elt F)),
    unary main_arg2 main_v35 (broadcastInDim S1600000x1 ![0] bcast_S1600000_S1600000x1_0 : (⟨S1600000, .i32⟩ : BufTy).Contents (Elt F) → (⟨S1600000x1, .i32⟩ : BufTy).Contents (Elt F)),
    ternary main_v34 main_v35 main_v29 main_v36 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_11 (constant S_ .f32 0x3F800000#32),
    TRef.unary (.of main_cst_11) main_call4.v0 id,
    TRef.unary main_call4.v0 main_call4.v1 (broadcastInDim S100000 ![] bcast_S_S100000),
    TRef.binary main_call4.v1 (.of main_v36) main_call4.v2 maximumf,
    unary main_v33 main_v38 (Host.rsqrt : (⟨S100000, .f32⟩ : BufTy).Contents (Elt F) → (⟨S100000, .f32⟩ : BufTy).Contents (Elt F)),
    unary main_v38 main_v39 (broadcastInDim S100000x1 ![0] bcast_S100000_S100000x1_0 : (⟨S100000, .f32⟩ : BufTy).Contents (Elt F) → (⟨S100000x1, .f32⟩ : BufTy).Contents (Elt F)),
    unary main_v39 main_v40 (broadcastInDim S100000x64 ![0, 1] bcast_S100000x1_S100000x64_0_1 : (⟨S100000x1, .f32⟩ : BufTy).Contents (Elt F) → (⟨S100000x64, .f32⟩ : BufTy).Contents (Elt F)),
    binary main_v28 main_v40 main_v41 (mulf : (⟨S100000x64, .f32⟩ : BufTy).Contents (Elt F) → (⟨S100000x64, .f32⟩ : BufTy).Contents (Elt F) → (⟨S100000x64, .f32⟩ : BufTy).Contents (Elt F)),
    binary main_v41 main_arg5 main_v42 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    nullary main_c_12 (constantI S_ 32 0#32),
    unary main_c_12 main_v43 (broadcastInDim S1600000 ![] bcast_S_S1600000 : (⟨S_, .i32⟩ : BufTy).Contents (Elt F) → (⟨S1600000, .i32⟩ : BufTy).Contents (Elt F)),
    binary main_arg1 main_v43 main_v44 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v45 (broadcastInDim S1600000 ![] bcast_S_S1600000 : (⟨S_, .i32⟩ : BufTy).Contents (Elt F) → (⟨S1600000, .i32⟩ : BufTy).Contents (Elt F)),
    binary main_arg1 main_v45 main_v46 (addi : (⟨S1600000, .i32⟩ : BufTy).Contents (Elt F) → (⟨S1600000, .i32⟩ : BufTy).Contents (Elt F) → (⟨S1600000, .i32⟩ : BufTy).Contents (Elt F)),
    ternary main_v44 main_v46 main_arg1 main_v47 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v47 main_v48 (broadcastInDim S1600000x1 ![0] bcast_S1600000_S1600000x1_0 : (⟨S1600000, .i32⟩ : BufTy).Contents (Elt F) → (⟨S1600000x1, .i32⟩ : BufTy).Contents (Elt F)),
    binary main_v42 main_v48 main_v49 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst_14 (constant S_ .f32 0x00000000#32),
    unary main_cst_14 main_v50 (broadcastInDim S100000x32 ![] bcast_S_S100000x32 : (⟨S_, .f32⟩ : BufTy).Contents (Elt F) → (⟨S100000x32, .f32⟩ : BufTy).Contents (Elt F)),
    unary main_arg2 main_v51 (broadcastInDim S1600000x1 ![0] bcast_S1600000_S1600000x1_0 : (⟨S1600000, .i32⟩ : BufTy).Contents (Elt F) → (⟨S1600000x1, .i32⟩ : BufTy).Contents (Elt F)),
    ternary main_v50 main_v51 main_v49 main_v52 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_v37 main_v53 (Host.rsqrt : (⟨S100000, .f32⟩ : BufTy).Contents (Elt F) → (⟨S100000, .f32⟩ : BufTy).Contents (Elt F)),
    unary main_v53 main_v54 (broadcastInDim S100000x1 ![0] bcast_S100000_S100000x1_0 : (⟨S100000, .f32⟩ : BufTy).Contents (Elt F) → (⟨S100000x1, .f32⟩ : BufTy).Contents (Elt F)),
    unary main_v54 main_v55 (broadcastInDim S100000x32 ![0, 1] bcast_S100000x1_S100000x32_0_1 : (⟨S100000x1, .f32⟩ : BufTy).Contents (Elt F) → (⟨S100000x32, .f32⟩ : BufTy).Contents (Elt F)),
    binary main_v52 main_v55 main_v56 (mulf : (⟨S100000x32, .f32⟩ : BufTy).Contents (Elt F) → (⟨S100000x32, .f32⟩ : BufTy).Contents (Elt F) → (⟨S100000x32, .f32⟩ : BufTy).Contents (Elt F)),
    nullary main_cst_15 (constant S_ .f32 0x3C23D70A#32),
    TRef.nullary main_call5.cst (constant S_ .f32 0x00000000#32),
    TRef.unary main_call5.cst main_call5.v0 (broadcastInDim S100000x32 ![] bcast_S_S100000x32),
    TRef.binary (.of main_v56) main_call5.v0 main_call5.v1 (cmpf .oge),
    TRef.unary (.of main_cst_15) main_call5.v2 id,
    TRef.unary main_call5.v2 main_call5.v3 (broadcastInDim S100000x32 ![] bcast_S_S100000x32),
    TRef.binary main_call5.v3 (.of main_v56) main_call5.v4 mulf,
    TRef.ternary main_call5.v1 (.of main_v56) main_call5.v4 main_call5.call0.v0 select,
    nullary main_cst_16 (constant S_ .f32 0x00000000#32),
    unary main_cst_16 main_v58 (broadcastInDim S64x32 ![] bcast_S_S64x32 : (⟨S_, .f32⟩ : BufTy).Contents (Elt F) → (⟨S64x32, .f32⟩ : BufTy).Contents (Elt F)),
    unary main_arg3 main_v59 (broadcastInDim S100000x1 ![0] bcast_S100000_S100000x1_0 : (⟨S100000, .i32⟩ : BufTy).Contents (Elt F) → (⟨S100000x1, .i32⟩ : BufTy).Contents (Elt F)),
    ternary main_v58 main_v59 main_v57 main_v60 ((fun x i u => Host.scatterAdd scatter_S64x32_S100000x1_S100000x32_1_0_0_1 x i u) : (⟨S64x32, .f32⟩ : BufTy).Contents (Elt F) → (⟨S100000x1, .i32⟩ : BufTy).Contents (Elt F) → (⟨S100000x32, .f32⟩ : BufTy).Contents (Elt F) → (⟨S64x32, .f32⟩ : BufTy).Contents (Elt F)),
    nullary main_cst_17 (constant S_ .f32 0x3F800000#32),
    unary main_cst_17 main_v61 (broadcastInDim S100000 ![] bcast_S_S100000 : (⟨S_, .f32⟩ : BufTy).Contents (Elt F) → (⟨S100000, .f32⟩ : BufTy).Contents (Elt F)),
    nullary main_cst_18 (constant S_ .f32 0x00000000#32),
    unary main_cst_18 main_v62 (broadcastInDim S64 ![] bcast_S_S64 : (⟨S_, .f32⟩ : BufTy).Contents (Elt F) → (⟨S64, .f32⟩ : BufTy).Contents (Elt F)),
    unary main_arg3 main_v63 (broadcastInDim S100000x1 ![0] bcast_S100000_S100000x1_0 : (⟨S100000, .i32⟩ : BufTy).Contents (Elt F) → (⟨S100000x1, .i32⟩ : BufTy).Contents (Elt F)),
    ternary main_v62 main_v63 main_v61 main_v64 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_19 (constant S_ .f32 0x3F800000#32),
    TRef.unary (.of main_cst_19) main_call6.v0 id,
    TRef.unary main_call6.v0 main_call6.v1 (broadcastInDim S64 ![] bcast_S_S64),
    TRef.binary main_call6.v1 (.of main_v64) main_call6.v2 maximumf,
    unary main_v65 main_v66 (broadcastInDim S64x1 ![0] bcast_S64_S64x1_0 : (⟨S64, .f32⟩ : BufTy).Contents (Elt F) → (⟨S64x1, .f32⟩ : BufTy).Contents (Elt F)),
    unary main_v66 main_v67 (broadcastInDim S64x32 ![0, 1] bcast_S64x1_S64x32_0_1 : (⟨S64x1, .f32⟩ : BufTy).Contents (Elt F) → (⟨S64x32, .f32⟩ : BufTy).Contents (Elt F)),
    binary main_v60 main_v67 main_v68 (Host.divf : (⟨S64x32, .f32⟩ : BufTy).Contents (Elt F) → (⟨S64x32, .f32⟩ : BufTy).Contents (Elt F) → (⟨S64x32, .f32⟩ : BufTy).Contents (Elt F)),
    binary main_v68 main_arg6 main_v69 ((fun l r => Host.dotGeneral dot_S64x32_S32x16_S64x16_1_0_0_1_n_n none l r) : (⟨S64x32, .f32⟩ : BufTy).Contents (Elt F) → (⟨S32x16, .f32⟩ : BufTy).Contents (Elt F) → (⟨S64x16, .f32⟩ : BufTy).Contents (Elt F)) ]

set_option maxRecDepth 8192 in
set_option maxHeartbeats 4000000 in
/-- @main is that straight line by computation: the two windows unfold, the functions' bodies unfold at their
    calls and the calls' records at their fields, and sequencing reassociates by the definition of bind. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub ..⟩

set_option maxRecDepth 8192 in
set_option maxHeartbeats 45600000 in
/-- The fold at the result buffer is `refOut` of the arguments' contents: each operation's result at its own
    buffer is its function of its operands' contents and every other buffer is kept (the references differ by
    computation); what is left is the named terms unfolded, the typed references' casts the identity. -/
theorem out_eq (V : Valuation τ sig (Elt F)) :
    after ops V (main_v69 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp <;> rfl

set_option maxRecDepth 8192 in
set_option maxHeartbeats 4000000 in
/-- No operation writes argument 0: it keeps its contents. -/
theorem arg0_eq (V : Valuation τ sig (Elt F)) :
    after ops V (main_arg0 : DevRef τ sig) = V (main_arg0 : DevRef τ sig) := by
  after_results_simp

set_option maxRecDepth 8192 in
set_option maxHeartbeats 4000000 in
/-- No operation writes argument 1: it keeps its contents. -/
theorem arg1_eq (V : Valuation τ sig (Elt F)) :
    after ops V (main_arg1 : DevRef τ sig) = V (main_arg1 : DevRef τ sig) := by
  after_results_simp

set_option maxRecDepth 8192 in
set_option maxHeartbeats 4000000 in
/-- No operation writes argument 2: it keeps its contents. -/
theorem arg2_eq (V : Valuation τ sig (Elt F)) :
    after ops V (main_arg2 : DevRef τ sig) = V (main_arg2 : DevRef τ sig) := by
  after_results_simp

set_option maxRecDepth 8192 in
set_option maxHeartbeats 4000000 in
/-- No operation writes argument 3: it keeps its contents. -/
theorem arg3_eq (V : Valuation τ sig (Elt F)) :
    after ops V (main_arg3 : DevRef τ sig) = V (main_arg3 : DevRef τ sig) := by
  after_results_simp

set_option maxRecDepth 8192 in
set_option maxHeartbeats 4000000 in
/-- No operation writes argument 4: it keeps its contents. -/
theorem arg4_eq (V : Valuation τ sig (Elt F)) :
    after ops V (main_arg4 : DevRef τ sig) = V (main_arg4 : DevRef τ sig) := by
  after_results_simp

set_option maxRecDepth 8192 in
set_option maxHeartbeats 4000000 in
/-- No operation writes argument 5: it keeps its contents. -/
theorem arg5_eq (V : Valuation τ sig (Elt F)) :
    after ops V (main_arg5 : DevRef τ sig) = V (main_arg5 : DevRef τ sig) := by
  after_results_simp

set_option maxRecDepth 8192 in
set_option maxHeartbeats 4000000 in
/-- No operation writes argument 6: it keeps its contents. -/
theorem arg6_eq (V : Valuation τ sig (Elt F)) :
    after ops V (main_arg6 : DevRef τ sig) = V (main_arg6 : DevRef τ sig) := by
  after_results_simp

/-- On every device, for any float values, from any memory with zero counters: every weakly fair execution of
    @main terminates with the result at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v69).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_seq scopedRefs_eq scopedSems_eq defs main (fun _ => ops) main_eq (fun _ => ops_sub) m ρ)

end Cert.ReferenceIdeal.HandRun

end
-- ==== Proof.lean ====
/-
  A two-layer graph convolution with mean pooling, as a program of five kernels among host operations, against its plain
  reference, on the extended reals. Both compute, for features X, edge lists (src, dst), graph ids and weights W1, W2, Wc:
  degrees clipped below at 1; h = (X · outdeg^(-1/2)) W1; m = the sum over edges of h[src] into dst; the leaky rectifier of
  m · indeg^(-1/2); the same once more with W2; then per graph the sum of the rows divided by the clipped node count,
  times Wc. The program does the per-node scalings, the rectifier and the division inside its kernels, block of rows by
  block of rows, and its matrix products in a narrower float format into a zero accumulator; the reference does all of
  it on the host. On the extended reals a change of float format is the identity and both products are the same finite
  sum, so the two results are one function of the arguments — no law of arithmetic beyond commutativity of the product
  (the slope on either side) and 0 · s = 0 (the rectifier's two spellings at 0) is used, and the precondition is never
  opened. The ideal pass rewrote nothing, so the idealized program is the printed one read at the ideal instance.
-/
import proofs.«108006_j68547678044330_1_alg».proof.Defs
import proofs.«108006_j68547678044330_1_alg».proof.Proof.Gen.Kernel
import proofs.«108006_j68547678044330_1_alg».proof.Proof.Gen.Kernel.Skeleton
import proofs.«108006_j68547678044330_1_alg».proof.Proof.Gen.Kernel.Launch
import proofs.«108006_j68547678044330_1_alg».proof.Proof.Gen.Kernel.Points
import proofs.«108006_j68547678044330_1_alg».proof.Proof.Gen.Kernel.Frame
import proofs.«108006_j68547678044330_1_alg».proof.Proof.Gen.KernelIdeal
import proofs.«108006_j68547678044330_1_alg».proof.Proof.Gen.KernelIdeal.Skeleton
import proofs.«108006_j68547678044330_1_alg».proof.Proof.Gen.KernelIdeal.Launch
import proofs.«108006_j68547678044330_1_alg».proof.Proof.Gen.KernelIdeal.Points
import proofs.«108006_j68547678044330_1_alg».proof.Proof.Gen.KernelIdeal.Frame
import proofs.«108006_j68547678044330_1_alg».proof.Proof.Gen.ReferenceIdeal
import proofs.«108006_j68547678044330_1_alg».proof.Proof.Gen.Pre_finite_inputs
import proofs.«108006_j68547678044330_1_alg».proof.Proof.KRun
import proofs.«108006_j68547678044330_1_alg».proof.Proof.KChain
import proofs.«108006_j68547678044330_1_alg».proof.Proof.Bridge
import proofs.«108006_j68547678044330_1_alg».proof.Proof.RefRun
import Idealize.ShloMosaic.Adequacy
import Idealize.ShloMosaic.Init

noncomputable section

namespace Cert.Proof

open Idealize.ShloMosaic Idealize.SL.Sem

/-- The printed program runs and leaves its arguments: the generated frame of its five regions. -/
theorem frame_kernel : Cert.frame_Kernel := fun m ρ _ => Cert.Kernel.Gen.frame m ρ

/-- The same for the program read at the ideal instance. -/
theorem frame_kernelIdeal : Cert.frame_KernelIdeal := fun m ρ _ => Cert.KernelIdeal.Gen.frame m ρ

/-- The reference runs and leaves its arguments: its run, with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The ideal pass rewrote no operation. -/
theorem preserves : Cert.preserves_Kernel_KernelIdeal := trivial

/-- From memories agreeing on the arguments both programs end with the reference's function of the arguments in their
    result buffer: the program's result is the composition of the specification's stages, which is the reference's. -/
theorem algebraic : Cert.algebraic_KernelIdeal_ReferenceIdeal := by
  intro m ρ m' ρ' _ hagree
  refine ⟨fun c => Cert.ReferenceIdeal.HandRun.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.ValueRun.run_value (F := Ideal) m ρ)
    exact (Cert.KernelIdeal.Chain.v46_at15 m ρ c).trans (Cert.Bridge.refOut_eq _ _ _ _ _ _ _).symm
  · refine (θ_run Cert.ReferenceIdeal.defs _ _).mono (fun r h c => ⟨(h c).1.trans ?_, (h c).2⟩)
      (Cert.ReferenceIdeal.HandRun.run (F := Ideal) m' ρ')
    obtain ⟨e0, e1, e2, e3, e4, e5, e6⟩ := hagree c
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
